-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x28x512x512 : Shape := ⟨4, ![8, 28, 512, 512]⟩
abbrev S512x512 : Shape := ⟨2, ![512, 512]⟩
abbrev S_ : Shape := ⟨0, ![]⟩

class Facts : Prop where
  bcast_S_S8x28x512x512 : S_.BroadcastsInDim S8x28x512x512 (![] : Fin 0 → Fin S8x28x512x512.rank)
  reducesTo_S8x28x512x512_S_d0_1_2_3 : S8x28x512x512.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8x28x512x512 .f32) (main_arg1 : FVec F S512x512 .f32) : IVec S_ 1 :=
  let main_v0 : FVec F S8x28x512x512 .f32 := Host.absf main_arg0
  let main_cst : FVec F S_ .f32 := constant S_ .f32 0x7F800000#32
  let main_v1 : FVec F S8x28x512x512 .f32 := broadcastInDim S8x28x512x512 ![] bcast_S_S8x28x512x512 main_cst
  let main_v2 : IVec S8x28x512x512 1 := cmpf .olt main_v0 main_v1
  let main_c : IVec S_ 1 := constantI S_ 1 1#1
  let main_v3 : IVec S_ 1 := (fun x v => Host.reduce IntOp.andi x v reducesTo_S8x28x512x512_S_d0_1_2_3 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S8x28x512x512 : Shape := ⟨4, ![8, 28, 512, 512]⟩
abbrev S512x512 : Shape := ⟨2, ![512, 512]⟩
abbrev S1x28x128x512 : Shape := ⟨4, ![1, 28, 128, 512]⟩
abbrev S128x512 : Shape := ⟨2, ![128, 512]⟩
abbrev S128x566 : Shape := ⟨2, ![128, 566]⟩
abbrev S1x1x128x512 : Shape := ⟨4, ![1, 1, 128, 512]⟩

abbrev nBuf : Space → Nat
  | .hbm => 3
  | .vmem => 7
  | .smem => 0
  | _ => 0

abbrev bufTy : (tb : Table) → Fin (tcTables nBuf tb) → BufTy
  | .hbm, ⟨0, _⟩ => ⟨S8x28x512x512, .f32⟩
  | .hbm, ⟨1, _⟩ => ⟨S512x512, .f32⟩
  | .hbm, ⟨2, _⟩ => ⟨S8x28x512x512, .f32⟩
  | .local _ .vmem, ⟨0, _⟩ => ⟨S1x28x128x512, .f32⟩
  | .local _ .vmem, ⟨1, _⟩ => ⟨S1x28x128x512, .f32⟩
  | .local _ .vmem, ⟨2, _⟩ => ⟨S128x512, .f32⟩
  | .local _ .vmem, ⟨3, _⟩ => ⟨S128x512, .f32⟩
  | .local _ .vmem, ⟨4, _⟩ => ⟨S1x28x128x512, .f32⟩
  | .local _ .vmem, ⟨5, _⟩ => ⟨S1x28x128x512, .f32⟩
  | .local _ .vmem, ⟨6, _⟩ => ⟨S128x566, .f32⟩
  | _, _ => ⟨S8x28x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x28x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x28x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x512_S128x512_0_0 : ∀ a, (![0, 0] : Fin 2 → Nat) a + S128x512.size a ≤ S128x512.size a
  h_S128x512 : 0 < S128x512.numel
  inb_S128x566_S128x566_0_0 : ∀ a, (![0, 0] : Fin 2 → Nat) a + S128x566.size a ≤ S128x566.size a
  h_S128x566 : 0 < S128x566.numel
  shapeCasts_S128x566_S128x566 : S128x566.ShapeCasts S128x566
  inb_S1x28x128x512_S1x1x128x512_0_0_0_0 : ∀ a, (![0, 0, 0, 0] : Fin 4 → Nat) a + S1x1x128x512.size a ≤ S1x28x128x512.size a
  h_S1x1x128x512 : 0 < S1x1x128x512.numel
  shapeCasts_S1x1x128x512_S128x512 : S1x1x128x512.ShapeCasts S128x512
  inb_S128x566_S128x512_0_0 : ∀ a, (![0, 0] : Fin 2 → Nat) a + S128x512.size a ≤ S128x566.size a
  shapeCasts_S128x512_S128x512 : S128x512.ShapeCasts S128x512
  inb_S1x28x128x512_S1x1x128x512_0_1_0_0 : ∀ a, (![0, 1, 0, 0] : Fin 4 → Nat) a + S1x1x128x512.size a ≤ S1x28x128x512.size a
  inb_S128x566_S128x512_0_2 : ∀ a, (![0, 2] : Fin 2 → Nat) a + S128x512.size a ≤ S128x566.size a
  inb_S1x28x128x512_S1x1x128x512_0_2_0_0 : ∀ a, (![0, 2, 0, 0] : Fin 4 → Nat) a + S1x1x128x512.size a ≤ S1x28x128x512.size a
  inb_S128x566_S128x512_0_4 : ∀ a, (![0, 4] : Fin 2 → Nat) a + S128x512.size a ≤ S128x566.size a
  inb_S1x28x128x512_S1x1x128x512_0_3_0_0 : ∀ a, (![0, 3, 0, 0] : Fin 4 → Nat) a + S1x1x128x512.size a ≤ S1x28x128x512.size a
  inb_S128x566_S128x512_0_6 : ∀ a, (![0, 6] : Fin 2 → Nat) a + S128x512.size a ≤ S128x566.size a
  inb_S1x28x128x512_S1x1x128x512_0_4_0_0 : ∀ a, (![0, 4, 0, 0] : Fin 4 → Nat) a + S1x1x128x512.size a ≤ S1x28x128x512.size a
  inb_S128x566_S128x512_0_8 : ∀ a, (![0, 8] : Fin 2 → Nat) a + S128x512.size a ≤ S128x566.size a
  inb_S1x28x128x512_S1x1x128x512_0_5_0_0 : ∀ a, (![0, 5, 0, 0] : Fin 4 → Nat) a + S1x1x128x512.size a ≤ S1x28x128x512.size a
  inb_S128x566_S128x512_0_10 : ∀ a, (![0, 10] : Fin 2 → Nat) a + S128x512.size a ≤ S128x566.size a
  inb_S1x28x128x512_S1x1x128x512_0_6_0_0 : ∀ a, (![0, 6, 0, 0] : Fin 4 → Nat) a + S1x1x128x512.size a ≤ S1x28x128x512.size a
  inb_S128x566_S128x512_0_12 : ∀ a, (![0, 12] : Fin 2 → Nat) a + S128x512.size a ≤ S128x566.size a
  inb_S1x28x128x512_S1x1x128x512_0_7_0_0 : ∀ a, (![0, 7, 0, 0] : Fin 4 → Nat) a + S1x1x128x512.size a ≤ S1x28x128x512.size a
  inb_S128x566_S128x512_0_14 : ∀ a, (![0, 14] : Fin 2 → Nat) a + S128x512.size a ≤ S128x566.size a
  inb_S1x28x128x512_S1x1x128x512_0_8_0_0 : ∀ a, (![0, 8, 0, 0] : Fin 4 → Nat) a + S1x1x128x512.size a ≤ S1x28x128x512.size a
  inb_S128x566_S128x512_0_16 : ∀ a, (![0, 16] : Fin 2 → Nat) a + S128x512.size a ≤ S128x566.size a
  inb_S1x28x128x512_S1x1x128x512_0_9_0_0 : ∀ a, (![0, 9, 0, 0] : Fin 4 → Nat) a + S1x1x128x512.size a ≤ S1x28x128x512.size a
  inb_S128x566_S128x512_0_18 : ∀ a, (![0, 18] : Fin 2 → Nat) a + S128x512.size a ≤ S128x566.size a
  inb_S1x28x128x512_S1x1x128x512_0_10_0_0 : ∀ a, (![0, 10, 0, 0] : Fin 4 → Nat) a + S1x1x128x512.size a ≤ S1x28x128x512.size a
  inb_S128x566_S128x512_0_20 : ∀ a, (![0, 20] : Fin 2 → Nat) a + S128x512.size a ≤ S128x566.size a
  inb_S1x28x128x512_S1x1x128x512_0_11_0_0 : ∀ a, (![0, 11, 0, 0] : Fin 4 → Nat) a + S1x1x128x512.size a ≤ S1x28x128x512.size a
  inb_S128x566_S128x512_0_22 : ∀ a, (![0, 22] : Fin 2 → Nat) a + S128x512.size a ≤ S128x566.size a
  inb_S1x28x128x512_S1x1x128x512_0_12_0_0 : ∀ a, (![0, 12, 0, 0] : Fin 4 → Nat) a + S1x1x128x512.size a ≤ S1x28x128x512.size a
  inb_S128x566_S128x512_0_24 : ∀ a, (![0, 24] : Fin 2 → Nat) a + S128x512.size a ≤ S128x566.size a
  inb_S1x28x128x512_S1x1x128x512_0_13_0_0 : ∀ a, (![0, 13, 0, 0] : Fin 4 → Nat) a + S1x1x128x512.size a ≤ S1x28x128x512.size a
  inb_S128x566_S128x512_0_26 : ∀ a, (![0, 26] : Fin 2 → Nat) a + S128x512.size a ≤ S128x566.size a
  inb_S1x28x128x512_S1x1x128x512_0_14_0_0 : ∀ a, (![0, 14, 0, 0] : Fin 4 → Nat) a + S1x1x128x512.size a ≤ S1x28x128x512.size a
  inb_S128x566_S128x512_0_28 : ∀ a, (![0, 28] : Fin 2 → Nat) a + S128x512.size a ≤ S128x566.size a
  inb_S1x28x128x512_S1x1x128x512_0_15_0_0 : ∀ a, (![0, 15, 0, 0] : Fin 4 → Nat) a + S1x1x128x512.size a ≤ S1x28x128x512.size a
  inb_S128x566_S128x512_0_30 : ∀ a, (![0, 30] : Fin 2 → Nat) a + S128x512.size a ≤ S128x566.size a
  inb_S1x28x128x512_S1x1x128x512_0_16_0_0 : ∀ a, (![0, 16, 0, 0] : Fin 4 → Nat) a + S1x1x128x512.size a ≤ S1x28x128x512.size a
  inb_S128x566_S128x512_0_32 : ∀ a, (![0, 32] : Fin 2 → Nat) a + S128x512.size a ≤ S128x566.size a
  inb_S1x28x128x512_S1x1x128x512_0_17_0_0 : ∀ a, (![0, 17, 0, 0] : Fin 4 → Nat) a + S1x1x128x512.size a ≤ S1x28x128x512.size a
  inb_S128x566_S128x512_0_34 : ∀ a, (![0, 34] : Fin 2 → Nat) a + S128x512.size a ≤ S128x566.size a
  inb_S1x28x128x512_S1x1x128x512_0_18_0_0 : ∀ a, (![0, 18, 0, 0] : Fin 4 → Nat) a + S1x1x128x512.size a ≤ S1x28x128x512.size a
  inb_S128x566_S128x512_0_36 : ∀ a, (![0, 36] : Fin 2 → Nat) a + S128x512.size a ≤ S128x566.size a
  inb_S1x28x128x512_S1x1x128x512_0_19_0_0 : ∀ a, (![0, 19, 0, 0] : Fin 4 → Nat) a + S1x1x128x512.size a ≤ S1x28x128x512.size a
  inb_S128x566_S128x512_0_38 : ∀ a, (![0, 38] : Fin 2 → Nat) a + S128x512.size a ≤ S128x566.size a
  inb_S1x28x128x512_S1x1x128x512_0_20_0_0 : ∀ a, (![0, 20, 0, 0] : Fin 4 → Nat) a + S1x1x128x512.size a ≤ S1x28x128x512.size a
  inb_S128x566_S128x512_0_40 : ∀ a, (![0, 40] : Fin 2 → Nat) a + S128x512.size a ≤ S128x566.size a
  inb_S1x28x128x512_S1x1x128x512_0_21_0_0 : ∀ a, (![0, 21, 0, 0] : Fin 4 → Nat) a + S1x1x128x512.size a ≤ S1x28x128x512.size a
  inb_S128x566_S128x512_0_42 : ∀ a, (![0, 42] : Fin 2 → Nat) a + S128x512.size a ≤ S128x566.size a
  inb_S1x28x128x512_S1x1x128x512_0_22_0_0 : ∀ a, (![0, 22, 0, 0] : Fin 4 → Nat) a + S1x1x128x512.size a ≤ S1x28x128x512.size a
  inb_S128x566_S128x512_0_44 : ∀ a, (![0, 44] : Fin 2 → Nat) a + S128x512.size a ≤ S128x566.size a
  inb_S1x28x128x512_S1x1x128x512_0_23_0_0 : ∀ a, (![0, 23, 0, 0] : Fin 4 → Nat) a + S1x1x128x512.size a ≤ S1x28x128x512.size a
  inb_S128x566_S128x512_0_46 : ∀ a, (![0, 46] : Fin 2 → Nat) a + S128x512.size a ≤ S128x566.size a
  inb_S1x28x128x512_S1x1x128x512_0_24_0_0 : ∀ a, (![0, 24, 0, 0] : Fin 4 → Nat) a + S1x1x128x512.size a ≤ S1x28x128x512.size a
  inb_S128x566_S128x512_0_48 : ∀ a, (![0, 48] : Fin 2 → Nat) a + S128x512.size a ≤ S128x566.size a
  inb_S1x28x128x512_S1x1x128x512_0_25_0_0 : ∀ a, (![0, 25, 0, 0] : Fin 4 → Nat) a + S1x1x128x512.size a ≤ S1x28x128x512.size a
  inb_S128x566_S128x512_0_50 : ∀ a, (![0, 50] : Fin 2 → Nat) a + S128x512.size a ≤ S128x566.size a
  inb_S1x28x128x512_S1x1x128x512_0_26_0_0 : ∀ a, (![0, 26, 0, 0] : Fin 4 → Nat) a + S1x1x128x512.size a ≤ S1x28x128x512.size a
  inb_S128x566_S128x512_0_52 : ∀ a, (![0, 52] : Fin 2 → Nat) a + S128x512.size a ≤ S128x566.size a
  inb_S1x28x128x512_S1x1x128x512_0_27_0_0 : ∀ a, (![0, 27, 0, 0] : Fin 4 → Nat) a + S1x1x128x512.size a ≤ S1x28x128x512.size a
  inb_S128x566_S128x512_0_54 : ∀ a, (![0, 54] : Fin 2 → Nat) a + S128x512.size a ≤ S128x566.size a
  shapeCasts_S128x512_S1x1x128x512 : S128x512.ShapeCasts S1x1x128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x28x128x512.size a ≤ S8x28x512x512.size a
  hwx0_0 : ∀ i : grid0.Coords, EltTy.bits .f32 = 32 ∨ (Rect.block (s := S8x28x512x512) S1x28x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x28x128x512.size a ≤ S8x28x512x512.size a
  hwx0_2 : ∀ i : grid0.Coords, EltTy.bits .f32 = 32 ∨ (Rect.block (s := S8x28x512x512) S1x28x128x512.size (cc0_transform_2 i) (hinb0_2 i)).WholeWords (EltTy.packing .f32)

variable [Facts₀]

abbrev win0_0 : Pipeline.Window sig grid0 :=
  Pipeline.Window.ofSpec (Memref.whole main_arg0) S1x28x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x28x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x28x512x512 : Shape := ⟨4, ![8, 28, 512, 512]⟩
abbrev S512x512 : Shape := ⟨2, ![512, 512]⟩
abbrev S1x1x512x512 : Shape := ⟨4, ![1, 1, 512, 512]⟩
abbrev S28 : Shape := ⟨1, ![28]⟩
abbrev S28x1 : Shape := ⟨2, ![28, 1]⟩
abbrev S_ : Shape := ⟨0, ![]⟩
abbrev S512 : Shape := ⟨1, ![512]⟩
abbrev S1x512 : Shape := ⟨2, ![1, 512]⟩
abbrev S28x512 : Shape := ⟨2, ![28, 512]⟩
abbrev S14336 : Shape := ⟨1, ![14336]⟩
abbrev S8x512x28x512 : Shape := ⟨4, ![8, 512, 28, 512]⟩
abbrev S8x512x14336 : Shape := ⟨3, ![8, 512, 14336]⟩
abbrev S8x512x566 : Shape := ⟨3, ![8, 512, 566]⟩
abbrev S14336x1 : Shape := ⟨2, ![14336, 1]⟩
abbrev S28x512x1 : Shape := ⟨3, ![28, 512, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x28x512x512, .f32⟩
  | .hbm, ⟨1, _⟩ => ⟨S512x512, .f32⟩
  | .hbm, ⟨2, _⟩ => ⟨S1x1x512x512, .f32⟩
  | .hbm, ⟨3, _⟩ => ⟨S8x28x512x512, .f32⟩
  | .hbm, ⟨4, _⟩ => ⟨S8x28x512x512, .f32⟩
  | .hbm, ⟨5, _⟩ => ⟨S28, .i32⟩
  | .hbm, ⟨6, _⟩ => ⟨S28x1, .i32⟩
  | .hbm, ⟨7, _⟩ => ⟨S_, .i32⟩
  | .hbm, ⟨8, _⟩ => ⟨S28x1, .i32⟩
  | .hbm, ⟨9, _⟩ => ⟨S28x1, .i32⟩
  | .hbm, ⟨10, _⟩ => ⟨S512, .i32⟩
  | .hbm, ⟨11, _⟩ => ⟨S1x512, .i32⟩
  | .hbm, ⟨12, _⟩ => ⟨S28x512, .i32⟩
  | .hbm, ⟨13, _⟩ => ⟨S28x512, .i32⟩
  | .hbm, ⟨14, _⟩ => ⟨S28x512, .i32⟩
  | .hbm, ⟨15, _⟩ => ⟨S14336, .i32⟩
  | .hbm, ⟨16, _⟩ => ⟨S8x512x28x512, .f32⟩
  | .hbm, ⟨17, _⟩ => ⟨S8x512x14336, .f32⟩
  | .hbm, ⟨18, _⟩ => ⟨S_, .f32⟩
  | .hbm, ⟨19, _⟩ => ⟨S8x512x566, .f32⟩
  | .hbm, ⟨20, _⟩ => ⟨S_, .i32⟩
  | .hbm, ⟨21, _⟩ => ⟨S14336, .i32⟩
  | .hbm, ⟨22, _⟩ => ⟨S14336, .i1⟩
  | .hbm, ⟨23, _⟩ => ⟨S_, .i32⟩
  | .hbm, ⟨24, _⟩ => ⟨S14336, .i32⟩
  | .hbm, ⟨25, _⟩ => ⟨S14336, .i32⟩
  | .hbm, ⟨26, _⟩ => ⟨S14336, .i32⟩
  | .hbm, ⟨27, _⟩ => ⟨S14336x1, .i32⟩
  | .hbm, ⟨28, _⟩ => ⟨S8x512x566, .f32⟩
  | .hbm, ⟨29, _⟩ => ⟨S28, .i32⟩
  | .hbm, ⟨30, _⟩ => ⟨S28x1, .i32⟩
  | .hbm, ⟨31, _⟩ => ⟨S_, .i32⟩
  | .hbm, ⟨32, _⟩ => ⟨S28x1, .i32⟩
  | .hbm, ⟨33, _⟩ => ⟨S28x1, .i32⟩
  | .hbm, ⟨34, _⟩ => ⟨S512, .i32⟩
  | .hbm, ⟨35, _⟩ => ⟨S1x512, .i32⟩
  | .hbm, ⟨36, _⟩ => ⟨S28x512, .i32⟩
  | .hbm, ⟨37, _⟩ => ⟨S28x512, .i32⟩
  | .hbm, ⟨38, _⟩ => ⟨S28x512, .i32⟩
  | .hbm, ⟨39, _⟩ => ⟨S_, .i32⟩
  | .hbm, ⟨40, _⟩ => ⟨S28x512, .i32⟩
  | .hbm, ⟨41, _⟩ => ⟨S28x512, .i1⟩
  | .hbm, ⟨42, _⟩ => ⟨S_, .i32⟩
  | .hbm, ⟨43, _⟩ => ⟨S28x512, .i32⟩
  | .hbm, ⟨44, _⟩ => ⟨S28x512, .i32⟩
  | .hbm, ⟨45, _⟩ => ⟨S28x512, .i32⟩
  | .hbm, ⟨46, _⟩ => ⟨S28x512x1, .i32⟩
  | .hbm, ⟨47, _⟩ => ⟨S8x512x28x512, .f32⟩
  | .hbm, ⟨48, _⟩ => ⟨S8x28x512x512, .f32⟩
  | .hbm, ⟨49, _⟩ => ⟨S1x1x512x512, .f32⟩
  | .hbm, ⟨50, _⟩ => ⟨S8x28x512x512, .f32⟩
  | .hbm, ⟨51, _⟩ => ⟨S8x28x512x512, .f32⟩
  | _, _ => ⟨S8x28x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_3 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]

class Facts₀ : Prop where
  bcast_S512x512_S1x1x512x512_2_3 : S512x512.BroadcastsInDim S1x1x512x512 (![2, 3] : Fin 2 → Fin S1x1x512x512.rank)
  bcast_S1x1x512x512_S8x28x512x512_0_1_2_3 : S1x1x512x512.BroadcastsInDim S8x28x512x512 (![0, 1, 2, 3] : Fin 4 → Fin S8x28x512x512.rank)
  bcast_S28_S28x1_0 : S28.BroadcastsInDim S28x1 (![0] : Fin 1 → Fin S28x1.rank)
  bcast_S_S28x1 : S_.BroadcastsInDim S28x1 (![] : Fin 0 → Fin S28x1.rank)
  bcast_S512_S1x512_1 : S512.BroadcastsInDim S1x512 (![1] : Fin 1 → Fin S1x512.rank)
  bcast_S28x1_S28x512_0_1 : S28x1.BroadcastsInDim S28x512 (![0, 1] : Fin 2 → Fin S28x512.rank)
  bcast_S1x512_S28x512_0_1 : S1x512.BroadcastsInDim S28x512 (![0, 1] : Fin 2 → Fin S28x512.rank)
  shapeCasts_S28x512_S14336 : S28x512.ShapeCasts S14336
  transposes_S8x28x512x512_S8x512x28x512_0_2_1_3 : S8x28x512x512.Transposes [0, 2, 1, 3] S8x512x28x512
  shapeCasts_S8x512x28x512_S8x512x14336 : S8x512x28x512.ShapeCasts S8x512x14336
  bcast_S_S8x512x566 : S_.BroadcastsInDim S8x512x566 (![] : Fin 0 → Fin S8x512x566.rank)
  bcast_S_S14336 : S_.BroadcastsInDim S14336 (![] : Fin 0 → Fin S14336.rank)
  bcast_S14336_S14336x1_0 : S14336.BroadcastsInDim S14336x1 (![0] : Fin 1 → Fin S14336x1.rank)
  bcast_S_S28x512 : S_.BroadcastsInDim S28x512 (![] : Fin 0 → Fin S28x512.rank)
  bcast_S28x512_S28x512x1_0_1 : S28x512.BroadcastsInDim S28x512x1 (![0, 1] : Fin 2 → Fin S28x512x1.rank)
  transposes_S8x512x28x512_S8x28x512x512_0_2_1_3 : S8x512x28x512.Transposes [0, 2, 1, 3] S8x28x512x512
  scatter_S8x512x566_S14336x1_S8x512x14336_01_2_2_1_wf : ScatterDims.WF S8x512x566 S14336x1 S8x512x14336 [0, 1] [2] [2] 1
  gather_S8x512x566_S28x512x1_S8x512x28x512_01_2_n_n_2_2_85121_wf : GatherDims.WF S8x512x566 S28x512x1 S8x512x28x512 [0, 1] [2] [] [2] [] 2 ![8, 512, 1]

variable [Facts₀]

def scatter_S8x512x566_S14336x1_S8x512x14336_01_2_2_1 : ScatterDims S8x512x566 S14336x1 S8x512x14336 where
  updateWindowDims := [0, 1]
  insertedWindowDims := [2]
  scatterDimsToOperandDims := [2]
  indexVectorDim := 1
  wf := scatter_S8x512x566_S14336x1_S8x512x14336_01_2_2_1_wf
def gather_S8x512x566_S28x512x1_S8x512x28x512_01_2_n_n_2_2_85121 : GatherDims S8x512x566 S28x512x1 S8x512x28x512 where
  offsetDims := [0, 1]
  collapsedSliceDims := [2]
  operandBatchingDims := []
  startIndicesBatchingDims := []
  startIndexMap := [2]
  indexVectorDim := 2
  sliceSizes := ![8, 512, 1]
  wf := gather_S8x512x566_S28x512x1_S8x512x28x512_01_2_n_n_2_2_85121_wf

class Facts : Prop extends Facts₀ where

variable [Facts]
-- ==== Proof.LibColWindows.lean ====
/-
  Read-modify-writes of overlapping COLUMN windows of a rank-2 buffer.

  A buffer of `N` rows and `K` columns is updated by a run of read-modify-writes, each of which loads the
  window of all `N` rows and the `W` columns `[o, o + W)`, adds a contribution and stores the window back;
  consecutive windows may overlap.  One such step, read at row `r`, column `C`: inside the window the old
  value plus the contribution at column `C - o` of the window, outside it the old value.  (The library's
  `Lib/WindowSumWrites.lean` is the same statement for windows of whole ROWS; this is its transpose, one
  step at a time, so that a run whose payloads are spelt differently from step to step can chain it.)
-/
import Idealize.ShloMosaic.Lib.WritesUnit
import Idealize.ShloMosaic.Lib.ValueIdx
import Idealize.ShloMosaic.Lib.Exec.Geometry

namespace Idealize.ShloMosaic

open ValueIdx

namespace View

variable {sig : RefSig} {κ : Kind} {sp : Space} {e : EltTy} {Val : EltTy → Type}

section Cols

variable {N K W o : ℕ} (v : View sig κ sp (⟨2, ![N, K]⟩ : Shape) e) (f : v.ty.Contents Val)
  (inb : ∀ a : Fin 2, (![0, o] : Fin 2 → ℕ) a + (![N, W] : Fin 2 → ℕ) a ≤ (![N, K] : Fin 2 → ℕ) a)
  (w : (⟨2, ![N, W]⟩ : Shape).Idx → Val e) (L : List (Piece Val (⟨2, ![N, K]⟩ : Shape) e))

/-- Newest wins for a piece of all rows and the columns `[o, o + W)`: the condition is on the column alone. -/
theorem read_writes_cons_cols (r : Fin N) (C : Fin K) :
    v.read Val (v.writes Val f ((⟨Rect.unit (s := ⟨2, ![N, K]⟩) ![0, o] ![N, W] inb, w⟩ : Piece Val (⟨2, ![N, K]⟩ : Shape) e) :: L))
        (ix2 r C)
      = if h : o ≤ C.val ∧ C.val < o + W then w (ix2 r ⟨C.val - o, by omega⟩)
        else v.read Val (v.writes Val f L) (ix2 r C) := by
  by_cases h : o ≤ C.val ∧ C.val < o + W
  · rw [dif_pos h]
    exact read_writes_cons_unit_of_mem v f inb w L (ix2 r C) (ix2 r ⟨C.val - o, by omega⟩) rfl fun a =>
      match a with
      | ⟨0, _⟩ => by show r.val = 0 + r.val; omega
      | ⟨1, _⟩ => by show C.val = o + (C.val - o); omega
  · rw [dif_neg h]
    exact read_writes_cons_unit_of_not_mem v f inb w L (ix2 r C) rfl (1 : Fin 2)
      (by show C.val < o ∨ o + W ≤ C.val; omega)

/-- A load of the window `[o, o + W)` of columns reads row `r`, column `o + p` at `(r, p)`. -/
theorem readAt_cols (g : v.ty.Contents Val) (r : Fin N) (p : Fin W) (hp : o + p.val < K) :
    v.readAt Val (Rect.unit (s := ⟨2, ![N, K]⟩) ![0, o] ![N, W] inb).toLoadRect g (ix2 r p)
      = v.read Val g (ix2 r ⟨o + p.val, hp⟩) := by
  rw [View.readAt_apply]
  refine congrArg (v.read Val g) (funext fun a => Fin.ext ?_)
  match a with
  | ⟨0, _⟩ => show 0 + 1 * r.val = r.val; omega
  | ⟨1, _⟩ => show o + 1 * p.val = o + p.val; omega

variable [AddCommMonoid (Val e)]

/-- ONE READ-MODIFY-WRITE of a column window: if the buffer read `a` before and the stored payload is, entry by
entry, the loaded window plus `d`, the buffer afterwards reads `a + d` (shifted) inside the window and `a` outside. -/
theorem read_rmw_cols (a : Fin N → Fin K → Val e) (d : Fin N → Fin W → Val e)
    (hL : ∀ r C, v.read Val (v.writes Val f L) (ix2 r C) = a r C)
    (hw : ∀ r p, w (ix2 r p)
      = v.readAt Val (Rect.unit (s := ⟨2, ![N, K]⟩) ![0, o] ![N, W] inb).toLoadRect (v.writes Val f L) (ix2 r p) + d r p)
    (r : Fin N) (C : Fin K) :
    v.read Val (v.writes Val f ((⟨Rect.unit (s := ⟨2, ![N, K]⟩) ![0, o] ![N, W] inb, w⟩ : Piece Val (⟨2, ![N, K]⟩ : Shape) e) :: L))
        (ix2 r C)
      = if h : o ≤ C.val ∧ C.val < o + W then a r C + d r ⟨C.val - o, by omega⟩ else a r C := by
  rw [read_writes_cons_cols]
  by_cases h : o ≤ C.val ∧ C.val < o + W
  · rw [dif_pos h, dif_pos h, hw, readAt_cols v inb (v.writes Val f L) r ⟨C.val - o, by omega⟩
      (by show o + (C.val - o) < K; have := C.isLt; omega)]
    have e : (⟨o + (C.val - o), by have := C.isLt; omega⟩ : Fin K) = C := Fin.ext (by show o + (C.val - o) = C.val; omega)
    rw [e, hL]
  · rw [dif_neg h, dif_neg h, hL]

end Cols

end View

end Idealize.ShloMosaic
-- ==== Proof.Accumulator.lean ====
/-
  The overlap-add accumulator of the kernel body.

  The body zeroes a scratch of 128 rows and 566 columns and then, for each band `l = 0 … 27`, loads the window of
  columns `[2l, 2l + 512)`, adds the masked band `x[l] · φ` to it and stores it back.  Read entry by entry, the
  scratch after the first `j` bands is the window accumulator of `Lib/WindowSum.lean` along the column axis:
  at row `r`, column `C`, the sum over the bands `l < j` whose window holds `C` of `x[l, r, C - 2l] · φ[r, C - 2l]`.
-/
import proofs.«107570_j74775380623701_1_alg».proof.Proof.Gen.KernelIdeal.Frame
import proofs.«107570_j74775380623701_1_alg».proof.Proof.LibColWindows
import Idealize.ShloMosaic.Lib.WindowSum
import Idealize.ShloMosaic.Lib.Pipeline.Value
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.WindowSum

/-! ## Loads of whole staging buffers, and the two reshapes of a band -/

/-- A load through a unit-stride rectangle of a whole buffer whose contents read `X` reads `X` at the rectangle's
offsets plus the position in the rectangle. -/
theorem load_unread {κ : Kind} {sp : Space} {s : Shape} {e : EltTy} {Val : EltTy → Type} {M : Memref sig κ sp s e}
    (h : M.IsWhole) (X : s.Idx → Val e) (off sz : Fin s.rank → ℕ) (inb : ∀ a, off a + sz a ≤ s.size a)
    (j : (Rect.unit off sz inb).shape.Idx) (k : s.Idx) (hk : ∀ a, (k a).val = off a + (j a).val) :
    M.view.readAt Val (Rect.unit off sz inb).toLoadRect (h.unread X) j = X k := by
  rw [View.readAt_apply, h.read_unread]
  exact congrArg X (funext fun a => Fin.ext (by show off a + 1 * (j a).val = (k a).val; rw [hk a]; omega))

/-- A band `[1, 1, 128, 512]` viewed as `[128, 512]` reads `(r, p)` at `(0, 0, r, p)`. -/
theorem cast_band_drop {α : Type} (v : S1x1x128x512.Idx → α) (h : S1x1x128x512.ShapeCasts S128x512) (r : Fin 128) (p : Fin 512) :
    shapeCast S128x512 v h (ix2 r p) = v (ix4 0 0 r p) :=
  shapeCast_apply v h (ix2 r p) (ix4 0 0 r p) (by
    rw [Shape.rowMajor_val_four, Shape.rowMajor_val_two]
    show ((0 * 1 + 0) * 128 + r.val) * 512 + p.val = r.val * 512 + p.val
    omega)

/-- A `[128, 512]` value stored as a band `[1, 1, 128, 512]` reads `(0, 0, r, p)` at `(r, p)`. -/
theorem cast_band_add {α : Type} (v : S128x512.Idx → α) (h : S128x512.ShapeCasts S1x1x128x512) (r : Fin 128) (p : Fin 512) :
    shapeCast S1x1x128x512 v h (ix4 0 0 r p) = v (ix2 r p) :=
  shapeCast_apply v h (ix4 0 0 r p) (ix2 r p) (by
    rw [Shape.rowMajor_val_four, Shape.rowMajor_val_two]
    show r.val * 512 + p.val = ((0 * 1 + 0) * 128 + r.val) * 512 + p.val
    omega)

section

variable (c : Dev nD) (arg2 : Memref sig .tc .vmem S1x28x128x512 .f32) (harg2 : arg2.IsWhole)
  (arg3 : Memref sig .tc .vmem S128x512 .f32) (harg3 : arg3.IsWhole) (arg5 : Memref sig .tc .vmem S128x566 .f32)
  (x0 : Vec Ideal S1x28x128x512 .f32) (x1 : Vec Ideal S128x512 .f32)

/-- Band `l`'s contribution to row `r` at column `p` of its window: the masked entry `x[l, r, p] · φ[r, p]`. -/
def band (l : Fin 28) (r : Fin 128) (p : Fin 512) : EReal := x0 (ix4 0 l r p) * x1 (ix2 r p)

/-- The scratch after the first `j` bands, at row `r`, column `C`. -/
def acc (j : ℕ) (hj : j ≤ 28) (r : Fin 128) (C : Fin 566) : EReal :=
  windowAcc 512 (fun l : Fin 28 => 2 * l.val) (fun l p => band x0 x1 l r p) (fun _ => 0) j hj C.val

/-- One more band: inside its window the accumulator gains the band's entry, outside it is unchanged. -/
theorem acc_succ (j : ℕ) (hj : j + 1 ≤ 28) (r : Fin 128) (C : Fin 566) :
    acc x0 x1 (j + 1) hj r C
      = if h : 2 * j ≤ C.val ∧ C.val < 2 * j + 512 then
          acc x0 x1 j (Nat.le_of_succ_le hj) r C + band x0 x1 ⟨j, hj⟩ r ⟨C.val - 2 * j, by omega⟩
        else acc x0 x1 j (Nat.le_of_succ_le hj) r C := rfl

/-- What one read-modify-write stores, entry by entry: the loaded window plus the band's masked entry. -/
theorem rmw_payload (l : Fin 28) (inb2 : ∀ a, (![0, l.val, 0, 0] : Fin 4 → ℕ) a + S1x1x128x512.size a ≤ S1x28x128x512.size a)
    (inb3 : ∀ a, (![0, 0] : Fin 2 → ℕ) a + S128x512.size a ≤ S128x512.size a)
    (a : Vec Ideal S128x512 .f32) (h1 : S1x1x128x512.ShapeCasts S128x512) (h2 : S128x512.ShapeCasts S128x512)
    (r : Fin 128) (p : Fin 512) :
    (shapeCast S128x512 (addf a (mulf (shapeCast S128x512
        (View.readAt (Elt Ideal) arg2.view (Rect.unit (s := S1x28x128x512) ![0, l.val, 0, 0] S1x1x128x512.size inb2).toLoadRect (harg2.unread x0)) h1 : FVec Ideal S128x512 .f32)
        (View.readAt (Elt Ideal) arg3.view (Rect.unit (s := S128x512) ![0, 0] S128x512.size inb3).toLoadRect (harg3.unread x1))) : FVec Ideal S128x512 .f32) h2 : FVec Ideal S128x512 .f32) (ix2 r p)
      = a (ix2 r p) + band x0 x1 l r p := by
  rw [shapeCast_self, addf_apply, mulf_apply, cast_band_drop,
    load_unread harg2 x0 _ _ inb2 (ix4 0 0 r p) (ix4 0 l r p) (fun a => match a with
      | ⟨0, _⟩ => rfl
      | ⟨1, _⟩ => by show l.val = l.val + 0; omega
      | ⟨2, _⟩ => by show r.val = 0 + r.val; omega
      | ⟨3, _⟩ => by show p.val = 0 + p.val; omega),
    load_unread harg3 x1 _ _ inb3 (ix2 r p) (ix2 r p) (fun a => match a with
      | ⟨0, _⟩ => by show r.val = 0 + r.val; omega
      | ⟨1, _⟩ => by show p.val = 0 + p.val; omega)]
  rfl

/-- The chain's step: a scratch that reads `acc l`, after band `l`'s read-modify-write, reads `acc (l + 1)`. -/
theorem chain_step (l : ℕ) (hl : l + 1 ≤ 28) (L : List (View.Piece (Elt Ideal) S128x566 .f32))
    (inb : ∀ a : Fin 2, (![0, 2 * l] : Fin 2 → ℕ) a + (![128, 512] : Fin 2 → ℕ) a ≤ (![128, 566] : Fin 2 → ℕ) a)
    (w : (⟨2, ![128, 512]⟩ : Shape).Idx → EReal)
    (hL : ∀ r C, arg5.view.read (Elt Ideal) (arg5.view.writes (Elt Ideal) arg5.view.junk L) (ix2 r C)
      = acc x0 x1 l (Nat.le_of_succ_le hl) r C)
    (hw : ∀ r p, w (ix2 r p)
      = arg5.view.readAt (Elt Ideal) (Rect.unit (s := S128x566) ![0, 2 * l] ![128, 512] inb).toLoadRect
          (arg5.view.writes (Elt Ideal) arg5.view.junk L) (ix2 r p) + band x0 x1 ⟨l, hl⟩ r p)
    (r : Fin 128) (C : Fin 566) :
    arg5.view.read (Elt Ideal) (arg5.view.writes (Elt Ideal) arg5.view.junk
        ((⟨Rect.unit (s := S128x566) ![0, 2 * l] ![128, 512] inb, w⟩ : View.Piece (Elt Ideal) S128x566 .f32) :: L)) (ix2 r C)
      = acc x0 x1 (l + 1) hl r C := by
  rw [acc_succ]
  exact View.read_rmw_cols (Val := Elt Ideal) arg5.view arg5.view.junk inb w L
    (fun r C => acc x0 x1 l (Nat.le_of_succ_le hl) r C) (fun r p => band x0 x1 ⟨l, hl⟩ r p) hL hw r C

/-! ## The chain, one store of the run at a time -/

/-- After the zero fill the scratch reads zero. -/
theorem hs1 (r : Fin 128) (C : Fin 566) :
    arg5.view.read (Elt Ideal) (arg5.view.writes (Elt Ideal) arg5.view.junk (kernelRun0_A.sl.HS0_1 (F := Ideal))) (ix2 r C)
      = acc x0 x1 0 (Nat.zero_le _) r C := by
  unfold kernelRun0_A.sl.HS0_1
  refine (View.read_writes_cons_unit_of_mem arg5.view arg5.view.junk _ _ _ (ix2 r C) (ix2 r C) rfl (fun a => match a with
    | ⟨0, _⟩ => by show r.val = 0 + r.val; omega
    | ⟨1, _⟩ => by show C.val = 0 + C.val; omega)).trans ?_
  unfold k0_pay5
  rw [shapeCast_self]
  exact Ideal.ofBits_zero_f32

/-- After band 0's read-modify-write. -/
theorem hs2 (r : Fin 128) (C : Fin 566) :
    arg5.view.read (Elt Ideal) (arg5.view.writes (Elt Ideal) arg5.view.junk
        (kernelRun0_A.sl.HS0_2 (F := Ideal) c arg2 harg2 arg3 harg3 arg5 x0 x1)) (ix2 r C)
      = acc x0 x1 1 (by decide) r C := by
  unfold kernelRun0_A.sl.HS0_2
  exact chain_step arg5 x0 x1 0 (by decide) _ _ _ (hs1 arg5 x0 x1)
    (fun r p => rmw_payload arg2 harg2 arg3 harg3 x0 x1 ⟨0, by decide⟩ _ _ (kernelRun0_A.sl.v8 (F := Ideal) c arg5) _ _ r p) r C

/-- After band 1's read-modify-write. -/
theorem hs3 (r : Fin 128) (C : Fin 566) :
    arg5.view.read (Elt Ideal) (arg5.view.writes (Elt Ideal) arg5.view.junk
        (kernelRun0_A.sl.HS0_3 (F := Ideal) c arg2 harg2 arg3 harg3 arg5 x0 x1)) (ix2 r C)
      = acc x0 x1 2 (by decide) r C := by
  unfold kernelRun0_A.sl.HS0_3
  exact chain_step arg5 x0 x1 1 (by decide) _ _ _ (hs2 c arg2 harg2 arg3 harg3 arg5 x0 x1)
    (fun r p => rmw_payload arg2 harg2 arg3 harg3 x0 x1 ⟨1, by decide⟩ _ _ (kernelRun0_A.sl.v16 (F := Ideal) c arg2 harg2 arg3 harg3 arg5 x0 x1) _ _ r p) r C

/-- After band 2's read-modify-write. -/
theorem hs4 (r : Fin 128) (C : Fin 566) :
    arg5.view.read (Elt Ideal) (arg5.view.writes (Elt Ideal) arg5.view.junk
        (kernelRun0_A.sl.HS0_4 (F := Ideal) c arg2 harg2 arg3 harg3 arg5 x0 x1)) (ix2 r C)
      = acc x0 x1 3 (by decide) r C := by
  unfold kernelRun0_A.sl.HS0_4
  exact chain_step arg5 x0 x1 2 (by decide) _ _ _ (hs3 c arg2 harg2 arg3 harg3 arg5 x0 x1)
    (fun r p => rmw_payload arg2 harg2 arg3 harg3 x0 x1 ⟨2, by decide⟩ _ _ (kernelRun0_A.sl.v24 (F := Ideal) c arg2 harg2 arg3 harg3 arg5 x0 x1) _ _ r p) r C

/-- After band 3's read-modify-write. -/
theorem hs5 (r : Fin 128) (C : Fin 566) :
    arg5.view.read (Elt Ideal) (arg5.view.writes (Elt Ideal) arg5.view.junk
        (kernelRun0_A.sl.HS0_5 (F := Ideal) c arg2 harg2 arg3 harg3 arg5 x0 x1)) (ix2 r C)
      = acc x0 x1 4 (by decide) r C := by
  unfold kernelRun0_A.sl.HS0_5
  exact chain_step arg5 x0 x1 3 (by decide) _ _ _ (hs4 c arg2 harg2 arg3 harg3 arg5 x0 x1)
    (fun r p => rmw_payload arg2 harg2 arg3 harg3 x0 x1 ⟨3, by decide⟩ _ _ (kernelRun0_A.sl.v32 (F := Ideal) c arg2 harg2 arg3 harg3 arg5 x0 x1) _ _ r p) r C

/-- After band 4's read-modify-write. -/
theorem hs6 (r : Fin 128) (C : Fin 566) :
    arg5.view.read (Elt Ideal) (arg5.view.writes (Elt Ideal) arg5.view.junk
        (kernelRun0_A.sl.HS0_6 (F := Ideal) c arg2 harg2 arg3 harg3 arg5 x0 x1)) (ix2 r C)
      = acc x0 x1 5 (by decide) r C := by
  unfold kernelRun0_A.sl.HS0_6
  exact chain_step arg5 x0 x1 4 (by decide) _ _ _ (hs5 c arg2 harg2 arg3 harg3 arg5 x0 x1)
    (fun r p => rmw_payload arg2 harg2 arg3 harg3 x0 x1 ⟨4, by decide⟩ _ _ (kernelRun0_A.sl.v40 (F := Ideal) c arg2 harg2 arg3 harg3 arg5 x0 x1) _ _ r p) r C

/-- After band 5's read-modify-write. -/
theorem hs7 (r : Fin 128) (C : Fin 566) :
    arg5.view.read (Elt Ideal) (arg5.view.writes (Elt Ideal) arg5.view.junk
        (kernelRun0_A.sl.HS0_7 (F := Ideal) c arg2 harg2 arg3 harg3 arg5 x0 x1)) (ix2 r C)
      = acc x0 x1 6 (by decide) r C := by
  unfold kernelRun0_A.sl.HS0_7
  exact chain_step arg5 x0 x1 5 (by decide) _ _ _ (hs6 c arg2 harg2 arg3 harg3 arg5 x0 x1)
    (fun r p => rmw_payload arg2 harg2 arg3 harg3 x0 x1 ⟨5, by decide⟩ _ _ (kernelRun0_A.sl.v48 (F := Ideal) c arg2 harg2 arg3 harg3 arg5 x0 x1) _ _ r p) r C

/-- After band 6's read-modify-write. -/
theorem hs8 (r : Fin 128) (C : Fin 566) :
    arg5.view.read (Elt Ideal) (arg5.view.writes (Elt Ideal) arg5.view.junk
        (kernelRun0_A.sl.HS0_8 (F := Ideal) c arg2 harg2 arg3 harg3 arg5 x0 x1)) (ix2 r C)
      = acc x0 x1 7 (by decide) r C := by
  unfold kernelRun0_A.sl.HS0_8
  exact chain_step arg5 x0 x1 6 (by decide) _ _ _ (hs7 c arg2 harg2 arg3 harg3 arg5 x0 x1)
    (fun r p => rmw_payload arg2 harg2 arg3 harg3 x0 x1 ⟨6, by decide⟩ _ _ (kernelRun0_A.sl.v56 (F := Ideal) c arg2 harg2 arg3 harg3 arg5 x0 x1) _ _ r p) r C

/-- After band 7's read-modify-write. -/
theorem hs9 (r : Fin 128) (C : Fin 566) :
    arg5.view.read (Elt Ideal) (arg5.view.writes (Elt Ideal) arg5.view.junk
        (kernelRun0_A.sl.HS0_9 (F := Ideal) c arg2 harg2 arg3 harg3 arg5 x0 x1)) (ix2 r C)
      = acc x0 x1 8 (by decide) r C := by
  unfold kernelRun0_A.sl.HS0_9
  exact chain_step arg5 x0 x1 7 (by decide) _ _ _ (hs8 c arg2 harg2 arg3 harg3 arg5 x0 x1)
    (fun r p => rmw_payload arg2 harg2 arg3 harg3 x0 x1 ⟨7, by decide⟩ _ _ (kernelRun0_A.sl.v64 (F := Ideal) c arg2 harg2 arg3 harg3 arg5 x0 x1) _ _ r p) r C

/-- After band 8's read-modify-write. -/
theorem hs10 (r : Fin 128) (C : Fin 566) :
    arg5.view.read (Elt Ideal) (arg5.view.writes (Elt Ideal) arg5.view.junk
        (kernelRun0_A.sl.HS0_10 (F := Ideal) c arg2 harg2 arg3 harg3 arg5 x0 x1)) (ix2 r C)
      = acc x0 x1 9 (by decide) r C := by
  unfold kernelRun0_A.sl.HS0_10
  exact chain_step arg5 x0 x1 8 (by decide) _ _ _ (hs9 c arg2 harg2 arg3 harg3 arg5 x0 x1)
    (fun r p => rmw_payload arg2 harg2 arg3 harg3 x0 x1 ⟨8, by decide⟩ _ _ (kernelRun0_A.sl.v72 (F := Ideal) c arg2 harg2 arg3 harg3 arg5 x0 x1) _ _ r p) r C

/-- After band 9's read-modify-write. -/
theorem hs11 (r : Fin 128) (C : Fin 566) :
    arg5.view.read (Elt Ideal) (arg5.view.writes (Elt Ideal) arg5.view.junk
        (kernelRun0_A.sl.HS0_11 (F := Ideal) c arg2 harg2 arg3 harg3 arg5 x0 x1)) (ix2 r C)
      = acc x0 x1 10 (by decide) r C := by
  unfold kernelRun0_A.sl.HS0_11
  exact chain_step arg5 x0 x1 9 (by decide) _ _ _ (hs10 c arg2 harg2 arg3 harg3 arg5 x0 x1)
    (fun r p => rmw_payload arg2 harg2 arg3 harg3 x0 x1 ⟨9, by decide⟩ _ _ (kernelRun0_A.sl.v80 (F := Ideal) c arg2 harg2 arg3 harg3 arg5 x0 x1) _ _ r p) r C

/-- After band 10's read-modify-write. -/
theorem hs12 (r : Fin 128) (C : Fin 566) :
    arg5.view.read (Elt Ideal) (arg5.view.writes (Elt Ideal) arg5.view.junk
        (kernelRun0_A.sl.HS0_12 (F := Ideal) c arg2 harg2 arg3 harg3 arg5 x0 x1)) (ix2 r C)
      = acc x0 x1 11 (by decide) r C := by
  unfold kernelRun0_A.sl.HS0_12
  exact chain_step arg5 x0 x1 10 (by decide) _ _ _ (hs11 c arg2 harg2 arg3 harg3 arg5 x0 x1)
    (fun r p => rmw_payload arg2 harg2 arg3 harg3 x0 x1 ⟨10, by decide⟩ _ _ (kernelRun0_A.sl.v88 (F := Ideal) c arg2 harg2 arg3 harg3 arg5 x0 x1) _ _ r p) r C

/-- After band 11's read-modify-write. -/
theorem hs13 (r : Fin 128) (C : Fin 566) :
    arg5.view.read (Elt Ideal) (arg5.view.writes (Elt Ideal) arg5.view.junk
        (kernelRun0_A.sl.HS0_13 (F := Ideal) c arg2 harg2 arg3 harg3 arg5 x0 x1)) (ix2 r C)
      = acc x0 x1 12 (by decide) r C := by
  unfold kernelRun0_A.sl.HS0_13
  exact chain_step arg5 x0 x1 11 (by decide) _ _ _ (hs12 c arg2 harg2 arg3 harg3 arg5 x0 x1)
    (fun r p => rmw_payload arg2 harg2 arg3 harg3 x0 x1 ⟨11, by decide⟩ _ _ (kernelRun0_A.sl.v96 (F := Ideal) c arg2 harg2 arg3 harg3 arg5 x0 x1) _ _ r p) r C

/-- After band 12's read-modify-write. -/
theorem hs14 (r : Fin 128) (C : Fin 566) :
    arg5.view.read (Elt Ideal) (arg5.view.writes (Elt Ideal) arg5.view.junk
        (kernelRun0_A.sl.HS0_14 (F := Ideal) c arg2 harg2 arg3 harg3 arg5 x0 x1)) (ix2 r C)
      = acc x0 x1 13 (by decide) r C := by
  unfold kernelRun0_A.sl.HS0_14
  exact chain_step arg5 x0 x1 12 (by decide) _ _ _ (hs13 c arg2 harg2 arg3 harg3 arg5 x0 x1)
    (fun r p => rmw_payload arg2 harg2 arg3 harg3 x0 x1 ⟨12, by decide⟩ _ _ (kernelRun0_A.sl.v104 (F := Ideal) c arg2 harg2 arg3 harg3 arg5 x0 x1) _ _ r p) r C

/-- After band 13's read-modify-write. -/
theorem hs15 (r : Fin 128) (C : Fin 566) :
    arg5.view.read (Elt Ideal) (arg5.view.writes (Elt Ideal) arg5.view.junk
        (kernelRun0_A.sl.HS0_15 (F := Ideal) c arg2 harg2 arg3 harg3 arg5 x0 x1)) (ix2 r C)
      = acc x0 x1 14 (by decide) r C := by
  unfold kernelRun0_A.sl.HS0_15
  exact chain_step arg5 x0 x1 13 (by decide) _ _ _ (hs14 c arg2 harg2 arg3 harg3 arg5 x0 x1)
    (fun r p => rmw_payload arg2 harg2 arg3 harg3 x0 x1 ⟨13, by decide⟩ _ _ (kernelRun0_A.sl.v112 (F := Ideal) c arg2 harg2 arg3 harg3 arg5 x0 x1) _ _ r p) r C

/-- After band 14's read-modify-write. -/
theorem hs16 (r : Fin 128) (C : Fin 566) :
    arg5.view.read (Elt Ideal) (arg5.view.writes (Elt Ideal) arg5.view.junk
        (kernelRun0_A.sl.HS0_16 (F := Ideal) c arg2 harg2 arg3 harg3 arg5 x0 x1)) (ix2 r C)
      = acc x0 x1 15 (by decide) r C := by
  unfold kernelRun0_A.sl.HS0_16
  exact chain_step arg5 x0 x1 14 (by decide) _ _ _ (hs15 c arg2 harg2 arg3 harg3 arg5 x0 x1)
    (fun r p => rmw_payload arg2 harg2 arg3 harg3 x0 x1 ⟨14, by decide⟩ _ _ (kernelRun0_A.sl.v120 (F := Ideal) c arg2 harg2 arg3 harg3 arg5 x0 x1) _ _ r p) r C

/-- After band 15's read-modify-write. -/
theorem hs17 (r : Fin 128) (C : Fin 566) :
    arg5.view.read (Elt Ideal) (arg5.view.writes (Elt Ideal) arg5.view.junk
        (kernelRun0_A.sl.HS0_17 (F := Ideal) c arg2 harg2 arg3 harg3 arg5 x0 x1)) (ix2 r C)
      = acc x0 x1 16 (by decide) r C := by
  unfold kernelRun0_A.sl.HS0_17
  exact chain_step arg5 x0 x1 15 (by decide) _ _ _ (hs16 c arg2 harg2 arg3 harg3 arg5 x0 x1)
    (fun r p => rmw_payload arg2 harg2 arg3 harg3 x0 x1 ⟨15, by decide⟩ _ _ (kernelRun0_A.sl.v128 (F := Ideal) c arg2 harg2 arg3 harg3 arg5 x0 x1) _ _ r p) r C

/-- After band 16's read-modify-write. -/
theorem hs18 (r : Fin 128) (C : Fin 566) :
    arg5.view.read (Elt Ideal) (arg5.view.writes (Elt Ideal) arg5.view.junk
        (kernelRun0_A.sl.HS0_18 (F := Ideal) c arg2 harg2 arg3 harg3 arg5 x0 x1)) (ix2 r C)
      = acc x0 x1 17 (by decide) r C := by
  unfold kernelRun0_A.sl.HS0_18
  exact chain_step arg5 x0 x1 16 (by decide) _ _ _ (hs17 c arg2 harg2 arg3 harg3 arg5 x0 x1)
    (fun r p => rmw_payload arg2 harg2 arg3 harg3 x0 x1 ⟨16, by decide⟩ _ _ (kernelRun0_A.sl.v136 (F := Ideal) c arg2 harg2 arg3 harg3 arg5 x0 x1) _ _ r p) r C

/-- After band 17's read-modify-write. -/
theorem hs19 (r : Fin 128) (C : Fin 566) :
    arg5.view.read (Elt Ideal) (arg5.view.writes (Elt Ideal) arg5.view.junk
        (kernelRun0_A.sl.HS0_19 (F := Ideal) c arg2 harg2 arg3 harg3 arg5 x0 x1)) (ix2 r C)
      = acc x0 x1 18 (by decide) r C := by
  unfold kernelRun0_A.sl.HS0_19
  exact chain_step arg5 x0 x1 17 (by decide) _ _ _ (hs18 c arg2 harg2 arg3 harg3 arg5 x0 x1)
    (fun r p => rmw_payload arg2 harg2 arg3 harg3 x0 x1 ⟨17, by decide⟩ _ _ (kernelRun0_A.sl.v144 (F := Ideal) c arg2 harg2 arg3 harg3 arg5 x0 x1) _ _ r p) r C

/-- After band 18's read-modify-write. -/
theorem hs20 (r : Fin 128) (C : Fin 566) :
    arg5.view.read (Elt Ideal) (arg5.view.writes (Elt Ideal) arg5.view.junk
        (kernelRun0_A.sl.HS0_20 (F := Ideal) c arg2 harg2 arg3 harg3 arg5 x0 x1)) (ix2 r C)
      = acc x0 x1 19 (by decide) r C := by
  unfold kernelRun0_A.sl.HS0_20
  exact chain_step arg5 x0 x1 18 (by decide) _ _ _ (hs19 c arg2 harg2 arg3 harg3 arg5 x0 x1)
    (fun r p => rmw_payload arg2 harg2 arg3 harg3 x0 x1 ⟨18, by decide⟩ _ _ (kernelRun0_A.sl.v152 (F := Ideal) c arg2 harg2 arg3 harg3 arg5 x0 x1) _ _ r p) r C

/-- After band 19's read-modify-write. -/
theorem hs21 (r : Fin 128) (C : Fin 566) :
    arg5.view.read (Elt Ideal) (arg5.view.writes (Elt Ideal) arg5.view.junk
        (kernelRun0_A.sl.HS0_21 (F := Ideal) c arg2 harg2 arg3 harg3 arg5 x0 x1)) (ix2 r C)
      = acc x0 x1 20 (by decide) r C := by
  unfold kernelRun0_A.sl.HS0_21
  exact chain_step arg5 x0 x1 19 (by decide) _ _ _ (hs20 c arg2 harg2 arg3 harg3 arg5 x0 x1)
    (fun r p => rmw_payload arg2 harg2 arg3 harg3 x0 x1 ⟨19, by decide⟩ _ _ (kernelRun0_A.sl.v160 (F := Ideal) c arg2 harg2 arg3 harg3 arg5 x0 x1) _ _ r p) r C

/-- After band 20's read-modify-write. -/
theorem hs22 (r : Fin 128) (C : Fin 566) :
    arg5.view.read (Elt Ideal) (arg5.view.writes (Elt Ideal) arg5.view.junk
        (kernelRun0_A.sl.HS0_22 (F := Ideal) c arg2 harg2 arg3 harg3 arg5 x0 x1)) (ix2 r C)
      = acc x0 x1 21 (by decide) r C := by
  unfold kernelRun0_A.sl.HS0_22
  exact chain_step arg5 x0 x1 20 (by decide) _ _ _ (hs21 c arg2 harg2 arg3 harg3 arg5 x0 x1)
    (fun r p => rmw_payload arg2 harg2 arg3 harg3 x0 x1 ⟨20, by decide⟩ _ _ (kernelRun0_A.sl.v168 (F := Ideal) c arg2 harg2 arg3 harg3 arg5 x0 x1) _ _ r p) r C

/-- After band 21's read-modify-write. -/
theorem hs23 (r : Fin 128) (C : Fin 566) :
    arg5.view.read (Elt Ideal) (arg5.view.writes (Elt Ideal) arg5.view.junk
        (kernelRun0_A.sl.HS0_23 (F := Ideal) c arg2 harg2 arg3 harg3 arg5 x0 x1)) (ix2 r C)
      = acc x0 x1 22 (by decide) r C := by
  unfold kernelRun0_A.sl.HS0_23
  exact chain_step arg5 x0 x1 21 (by decide) _ _ _ (hs22 c arg2 harg2 arg3 harg3 arg5 x0 x1)
    (fun r p => rmw_payload arg2 harg2 arg3 harg3 x0 x1 ⟨21, by decide⟩ _ _ (kernelRun0_A.sl.v176 (F := Ideal) c arg2 harg2 arg3 harg3 arg5 x0 x1) _ _ r p) r C

/-- After band 22's read-modify-write. -/
theorem hs24 (r : Fin 128) (C : Fin 566) :
    arg5.view.read (Elt Ideal) (arg5.view.writes (Elt Ideal) arg5.view.junk
        (kernelRun0_A.sl.HS0_24 (F := Ideal) c arg2 harg2 arg3 harg3 arg5 x0 x1)) (ix2 r C)
      = acc x0 x1 23 (by decide) r C := by
  unfold kernelRun0_A.sl.HS0_24
  exact chain_step arg5 x0 x1 22 (by decide) _ _ _ (hs23 c arg2 harg2 arg3 harg3 arg5 x0 x1)
    (fun r p => rmw_payload arg2 harg2 arg3 harg3 x0 x1 ⟨22, by decide⟩ _ _ (kernelRun0_A.sl.v184 (F := Ideal) c arg2 harg2 arg3 harg3 arg5 x0 x1) _ _ r p) r C

/-- After band 23's read-modify-write. -/
theorem hs25 (r : Fin 128) (C : Fin 566) :
    arg5.view.read (Elt Ideal) (arg5.view.writes (Elt Ideal) arg5.view.junk
        (kernelRun0_A.sl.HS0_25 (F := Ideal) c arg2 harg2 arg3 harg3 arg5 x0 x1)) (ix2 r C)
      = acc x0 x1 24 (by decide) r C := by
  unfold kernelRun0_A.sl.HS0_25
  exact chain_step arg5 x0 x1 23 (by decide) _ _ _ (hs24 c arg2 harg2 arg3 harg3 arg5 x0 x1)
    (fun r p => rmw_payload arg2 harg2 arg3 harg3 x0 x1 ⟨23, by decide⟩ _ _ (kernelRun0_A.sl.v192 (F := Ideal) c arg2 harg2 arg3 harg3 arg5 x0 x1) _ _ r p) r C

/-- After band 24's read-modify-write. -/
theorem hs26 (r : Fin 128) (C : Fin 566) :
    arg5.view.read (Elt Ideal) (arg5.view.writes (Elt Ideal) arg5.view.junk
        (kernelRun0_A.sl.HS0_26 (F := Ideal) c arg2 harg2 arg3 harg3 arg5 x0 x1)) (ix2 r C)
      = acc x0 x1 25 (by decide) r C := by
  unfold kernelRun0_A.sl.HS0_26
  exact chain_step arg5 x0 x1 24 (by decide) _ _ _ (hs25 c arg2 harg2 arg3 harg3 arg5 x0 x1)
    (fun r p => rmw_payload arg2 harg2 arg3 harg3 x0 x1 ⟨24, by decide⟩ _ _ (kernelRun0_A.sl.v200 (F := Ideal) c arg2 harg2 arg3 harg3 arg5 x0 x1) _ _ r p) r C

/-- After band 25's read-modify-write. -/
theorem hs27 (r : Fin 128) (C : Fin 566) :
    arg5.view.read (Elt Ideal) (arg5.view.writes (Elt Ideal) arg5.view.junk
        (kernelRun0_A.sl.HS0_27 (F := Ideal) c arg2 harg2 arg3 harg3 arg5 x0 x1)) (ix2 r C)
      = acc x0 x1 26 (by decide) r C := by
  unfold kernelRun0_A.sl.HS0_27
  exact chain_step arg5 x0 x1 25 (by decide) _ _ _ (hs26 c arg2 harg2 arg3 harg3 arg5 x0 x1)
    (fun r p => rmw_payload arg2 harg2 arg3 harg3 x0 x1 ⟨25, by decide⟩ _ _ (kernelRun0_A.sl.v208 (F := Ideal) c arg2 harg2 arg3 harg3 arg5 x0 x1) _ _ r p) r C

/-- After band 26's read-modify-write. -/
theorem hs28 (r : Fin 128) (C : Fin 566) :
    arg5.view.read (Elt Ideal) (arg5.view.writes (Elt Ideal) arg5.view.junk
        (kernelRun0_A.sl.HS0_28 (F := Ideal) c arg2 harg2 arg3 harg3 arg5 x0 x1)) (ix2 r C)
      = acc x0 x1 27 (by decide) r C := by
  unfold kernelRun0_A.sl.HS0_28
  exact chain_step arg5 x0 x1 26 (by decide) _ _ _ (hs27 c arg2 harg2 arg3 harg3 arg5 x0 x1)
    (fun r p => rmw_payload arg2 harg2 arg3 harg3 x0 x1 ⟨26, by decide⟩ _ _ (kernelRun0_A.sl.v216 (F := Ideal) c arg2 harg2 arg3 harg3 arg5 x0 x1) _ _ r p) r C

/-- After band 27's read-modify-write. -/
theorem hs29 (r : Fin 128) (C : Fin 566) :
    arg5.view.read (Elt Ideal) (arg5.view.writes (Elt Ideal) arg5.view.junk
        (kernelRun0_A.sl.HS0_29 (F := Ideal) c arg2 harg2 arg3 harg3 arg5 x0 x1)) (ix2 r C)
      = acc x0 x1 28 (by decide) r C := by
  unfold kernelRun0_A.sl.HS0_29
  exact chain_step arg5 x0 x1 27 (by decide) _ _ _ (hs28 c arg2 harg2 arg3 harg3 arg5 x0 x1)
    (fun r p => rmw_payload arg2 harg2 arg3 harg3 x0 x1 ⟨27, by decide⟩ _ _ (kernelRun0_A.sl.v224 (F := Ideal) c arg2 harg2 arg3 harg3 arg5 x0 x1) _ _ r p) r C

end

end Cert.KernelIdeal.Body

end
-- ==== Proof.BodyOutput.lean ====
/-
  What the kernel body leaves in the output block.

  After the 28 read-modify-writes the body reads the scratch back through each band's window, `[2l, 2l + 512)`,
  masks it and stores it as band `l` of the output block.  So the block, at `(0, l, r, n)`, is the finished
  accumulator at row `r`, column `2l + n`, times `φ[r, n]`; and the finished accumulator is the sum over ALL
  windows (`windowAcc_all`), the zero fill contributing nothing.
-/
import proofs.«107570_j74775380623701_1_alg».proof.Proof.Accumulator

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.WindowSum

section

variable (c : Dev nD) (i : grid0.Coords) (arg2 : Memref sig .tc .vmem S1x28x128x512 .f32) (harg2 : arg2.IsWhole)
  (arg3 : Memref sig .tc .vmem S128x512 .f32) (harg3 : arg3.IsWhole)
  (arg4 : Memref sig .tc .vmem S1x28x128x512 .f32) (harg4 : arg4.IsWhole)
  (arg5 : Memref sig .tc .vmem S128x566 .f32) (harg5 : arg5.IsWhole)
  (x0 : Vec Ideal S1x28x128x512 .f32) (x1 : Vec Ideal S128x512 .f32)

/-- The output block as one function of the two input blocks. -/
def blockG : S1x28x128x512.Idx → EReal := fun y =>
  acc x0 x1 28 (Nat.le_refl _) (y 2) ⟨2 * (y 1).val + (y 3).val, by
    have h1 : (y 1).val < 28 := (y 1).isLt
    have h3 : (y 3).val < 512 := (y 3).isLt
    omega⟩ * x1 (ix2 (y 2) (y 3))

/-- One of the 28 stores into the output block: its payload, entry by entry, is `blockG` under its rectangle. -/
theorem piece_eq (l : Fin 28)
    (inbO : ∀ a, (![0, l.val, 0, 0] : Fin 4 → ℕ) a + (![1, 1, 128, 512] : Fin 4 → ℕ) a ≤ S1x28x128x512.size a)
    (inbW : ∀ a : Fin 2, (![0, 2 * l.val] : Fin 2 → ℕ) a + (![128, 512] : Fin 2 → ℕ) a ≤ (![128, 566] : Fin 2 → ℕ) a)
    (inb3 : ∀ a, (![0, 0] : Fin 2 → ℕ) a + S128x512.size a ≤ S128x512.size a)
    (h : S128x512.ShapeCasts S1x1x128x512) (x : (⟨4, ![1, 1, 128, 512]⟩ : Shape).Idx) :
    (shapeCast S1x1x128x512 (mulf
        (arg5.view.readCov (kernelRun0_A.sl.HS0_29 (F := Ideal) c arg2 harg2 arg3 harg3 arg5 x0 x1)
          (Rect.unit (s := S128x566) ![0, 2 * l.val] ![128, 512] inbW).toLoadRect : FVec Ideal S128x512 .f32)
        (View.readAt (Elt Ideal) arg3.view (Rect.unit (s := S128x512) ![0, 0] S128x512.size inb3).toLoadRect (harg3.unread x1))
        : FVec Ideal S128x512 .f32) h : FVec Ideal S1x1x128x512 .f32) x
      = blockG x0 x1 ((Rect.unit (s := S1x28x128x512) ![0, l.val, 0, 0] ![1, 1, 128, 512] inbO).emb x) := by
  have h0 : (x 0).val = 0 := by have : (x 0).val < 1 := (x 0).isLt; omega
  have h1 : (x 1).val = 0 := by have : (x 1).val < 1 := (x 1).isLt; omega
  obtain ⟨r, p, rfl⟩ : ∃ (r : Fin 128) (p : Fin 512), x = ix4 0 0 r p :=
    ⟨x 2, x 3, funext fun a => match a with
      | ⟨0, _⟩ => Fin.ext h0
      | ⟨1, _⟩ => Fin.ext h1
      | ⟨2, _⟩ => rfl
      | ⟨3, _⟩ => rfl⟩
  have he : (Rect.unit (s := S1x28x128x512) ![0, l.val, 0, 0] ![1, 1, 128, 512] inbO).emb (ix4 0 0 r p) = ix4 0 l r p :=
    funext fun a => Fin.ext (match a with
      | ⟨0, _⟩ => rfl
      | ⟨1, _⟩ => by show l.val + 1 * 0 = l.val; omega
      | ⟨2, _⟩ => by show 0 + 1 * r.val = r.val; omega
      | ⟨3, _⟩ => by show 0 + 1 * p.val = p.val; omega)
  rw [he, cast_band_add, mulf_apply,
    load_unread harg3 x1 _ _ inb3 (ix2 r p) (ix2 r p) (fun a => match a with
      | ⟨0, _⟩ => by show r.val = 0 + r.val; omega
      | ⟨1, _⟩ => by show p.val = 0 + p.val; omega)]
  unfold View.readCov
  rw [View.readAt_cols (Val := Elt Ideal) arg5.view inbW _ r p (by have := l.isLt; have := p.isLt; omega),
    hs29 c arg2 harg2 arg3 harg3 arg5 x0 x1]
  rfl

/-- THE OUTPUT BLOCK after the body: `blockG` of the two input blocks. -/
theorem out_eq :
    out0_A_2 (F := Ideal) c i arg2 harg2 arg3 harg3 arg4 harg4 arg5 harg5 x0 x1 = blockG x0 x1 := by
  unfold out0_A_2
  rw [View.read_writes_eq_canon _ _ _ (cover0_A_2 c i arg2 harg2 arg3 harg3 arg4 harg4 arg5 harg5 x0 x1)]
  funext y
  refine View.canon_apply_of_pieces (blockG x0 x1) _ ?_ y (cover0_A_2 c i arg2 harg2 arg3 harg3 arg4 harg4 arg5 harg5 x0 x1 y)
  unfold kernelRun0_A
  dsimp only
  refine List.forall_mem_cons.2 ⟨fun x => piece_eq c arg2 harg2 arg3 harg3 arg5 x0 x1 ⟨27, by decide⟩ (by decide) (by decide) (by decide) _ x, ?_⟩
  refine List.forall_mem_cons.2 ⟨fun x => piece_eq c arg2 harg2 arg3 harg3 arg5 x0 x1 ⟨26, by decide⟩ (by decide) (by decide) (by decide) _ x, ?_⟩
  refine List.forall_mem_cons.2 ⟨fun x => piece_eq c arg2 harg2 arg3 harg3 arg5 x0 x1 ⟨25, by decide⟩ (by decide) (by decide) (by decide) _ x, ?_⟩
  refine List.forall_mem_cons.2 ⟨fun x => piece_eq c arg2 harg2 arg3 harg3 arg5 x0 x1 ⟨24, by decide⟩ (by decide) (by decide) (by decide) _ x, ?_⟩
  refine List.forall_mem_cons.2 ⟨fun x => piece_eq c arg2 harg2 arg3 harg3 arg5 x0 x1 ⟨23, by decide⟩ (by decide) (by decide) (by decide) _ x, ?_⟩
  refine List.forall_mem_cons.2 ⟨fun x => piece_eq c arg2 harg2 arg3 harg3 arg5 x0 x1 ⟨22, by decide⟩ (by decide) (by decide) (by decide) _ x, ?_⟩
  refine List.forall_mem_cons.2 ⟨fun x => piece_eq c arg2 harg2 arg3 harg3 arg5 x0 x1 ⟨21, by decide⟩ (by decide) (by decide) (by decide) _ x, ?_⟩
  refine List.forall_mem_cons.2 ⟨fun x => piece_eq c arg2 harg2 arg3 harg3 arg5 x0 x1 ⟨20, by decide⟩ (by decide) (by decide) (by decide) _ x, ?_⟩
  refine List.forall_mem_cons.2 ⟨fun x => piece_eq c arg2 harg2 arg3 harg3 arg5 x0 x1 ⟨19, by decide⟩ (by decide) (by decide) (by decide) _ x, ?_⟩
  refine List.forall_mem_cons.2 ⟨fun x => piece_eq c arg2 harg2 arg3 harg3 arg5 x0 x1 ⟨18, by decide⟩ (by decide) (by decide) (by decide) _ x, ?_⟩
  refine List.forall_mem_cons.2 ⟨fun x => piece_eq c arg2 harg2 arg3 harg3 arg5 x0 x1 ⟨17, by decide⟩ (by decide) (by decide) (by decide) _ x, ?_⟩
  refine List.forall_mem_cons.2 ⟨fun x => piece_eq c arg2 harg2 arg3 harg3 arg5 x0 x1 ⟨16, by decide⟩ (by decide) (by decide) (by decide) _ x, ?_⟩
  refine List.forall_mem_cons.2 ⟨fun x => piece_eq c arg2 harg2 arg3 harg3 arg5 x0 x1 ⟨15, by decide⟩ (by decide) (by decide) (by decide) _ x, ?_⟩
  refine List.forall_mem_cons.2 ⟨fun x => piece_eq c arg2 harg2 arg3 harg3 arg5 x0 x1 ⟨14, by decide⟩ (by decide) (by decide) (by decide) _ x, ?_⟩
  refine List.forall_mem_cons.2 ⟨fun x => piece_eq c arg2 harg2 arg3 harg3 arg5 x0 x1 ⟨13, by decide⟩ (by decide) (by decide) (by decide) _ x, ?_⟩
  refine List.forall_mem_cons.2 ⟨fun x => piece_eq c arg2 harg2 arg3 harg3 arg5 x0 x1 ⟨12, by decide⟩ (by decide) (by decide) (by decide) _ x, ?_⟩
  refine List.forall_mem_cons.2 ⟨fun x => piece_eq c arg2 harg2 arg3 harg3 arg5 x0 x1 ⟨11, by decide⟩ (by decide) (by decide) (by decide) _ x, ?_⟩
  refine List.forall_mem_cons.2 ⟨fun x => piece_eq c arg2 harg2 arg3 harg3 arg5 x0 x1 ⟨10, by decide⟩ (by decide) (by decide) (by decide) _ x, ?_⟩
  refine List.forall_mem_cons.2 ⟨fun x => piece_eq c arg2 harg2 arg3 harg3 arg5 x0 x1 ⟨9, by decide⟩ (by decide) (by decide) (by decide) _ x, ?_⟩
  refine List.forall_mem_cons.2 ⟨fun x => piece_eq c arg2 harg2 arg3 harg3 arg5 x0 x1 ⟨8, by decide⟩ (by decide) (by decide) (by decide) _ x, ?_⟩
  refine List.forall_mem_cons.2 ⟨fun x => piece_eq c arg2 harg2 arg3 harg3 arg5 x0 x1 ⟨7, by decide⟩ (by decide) (by decide) (by decide) _ x, ?_⟩
  refine List.forall_mem_cons.2 ⟨fun x => piece_eq c arg2 harg2 arg3 harg3 arg5 x0 x1 ⟨6, by decide⟩ (by decide) (by decide) (by decide) _ x, ?_⟩
  refine List.forall_mem_cons.2 ⟨fun x => piece_eq c arg2 harg2 arg3 harg3 arg5 x0 x1 ⟨5, by decide⟩ (by decide) (by decide) (by decide) _ x, ?_⟩
  refine List.forall_mem_cons.2 ⟨fun x => piece_eq c arg2 harg2 arg3 harg3 arg5 x0 x1 ⟨4, by decide⟩ (by decide) (by decide) (by decide) _ x, ?_⟩
  refine List.forall_mem_cons.2 ⟨fun x => piece_eq c arg2 harg2 arg3 harg3 arg5 x0 x1 ⟨3, by decide⟩ (by decide) (by decide) (by decide) _ x, ?_⟩
  refine List.forall_mem_cons.2 ⟨fun x => piece_eq c arg2 harg2 arg3 harg3 arg5 x0 x1 ⟨2, by decide⟩ (by decide) (by decide) (by decide) _ x, ?_⟩
  refine List.forall_mem_cons.2 ⟨fun x => piece_eq c arg2 harg2 arg3 harg3 arg5 x0 x1 ⟨1, by decide⟩ (by decide) (by decide) (by decide) _ x, ?_⟩
  refine List.forall_mem_cons.2 ⟨fun x => piece_eq c arg2 harg2 arg3 harg3 arg5 x0 x1 ⟨0, by decide⟩ (by decide) (by decide) (by decide) _ x, ?_⟩
  exact fun _ h => absurd h List.not_mem_nil

/-- The finished accumulator is the sum over all 28 windows. -/
theorem acc_all (r : Fin 128) (C : Fin 566) :
    acc x0 x1 28 (Nat.le_refl _) r C
      = windowSum 512 (fun l : Fin 28 => 2 * l.val) Finset.univ (fun l p => band x0 x1 l r p) C.val := by
  unfold acc
  rw [windowAcc_all, zero_add]

end

end Cert.KernelIdeal.Body

end
-- ==== Proof.Spec.lean ====
/-
  The specification: the coded-aperture forward-and-back map as ONE function of the two argument arrays.

  `x : [8, 28, 512, 512]` is a batch of 8 cubes of 28 bands of 512 × 512 entries, `φ : [512, 512]` the mask.  Band `l`
  of the masked cube `x · φ` is shifted `2l` columns to the right and the 28 shifted bands are added into a
  measurement of 512 rows and 566 columns: at row `R`, column `C`,

      meas b R C = ∑ over the bands l with 2l ≤ C < 2l + 512 of x[b, l, R, C − 2l] · φ[R, C − 2l]

  (`Lib/WindowSum.lean`'s `windowSum` over all 28 windows of width 512 at offsets `2l`).  The result reads the
  measurement back through each band's window and masks it again:

      G x φ [b, l, R, n] = meas b R (2l + n) · φ[R, n].

  A sum in the extended reals may be taken in any order, so neither program's order of accumulation matters.
-/
import Idealize.ShloMosaic.PureOps.Ideal
import Idealize.ShloMosaic.Lib.ValueIdx
import Idealize.ShloMosaic.Lib.WindowSum

noncomputable section

namespace Cert.Spec

open Idealize.ShloMosaic Idealize.ShloMosaic.ValueIdx Idealize.ShloMosaic.WindowSum

/-- The measurement at row `R` of batch `b`, detector column `C`. -/
def meas (x : (⟨4, ![8, 28, 512, 512]⟩ : Shape).Idx → EReal) (φ : (⟨2, ![512, 512]⟩ : Shape).Idx → EReal)
    (b : Fin 8) (R : Fin 512) (C : ℕ) : EReal :=
  windowSum 512 (fun l : Fin 28 => 2 * l.val) Finset.univ (fun l p => x (ix4 b l R p) * φ (ix2 R p)) C

/-- The result: the measurement read back through band `l`'s window, masked. -/
def G (x : (⟨4, ![8, 28, 512, 512]⟩ : Shape).Idx → EReal) (φ : (⟨2, ![512, 512]⟩ : Shape).Idx → EReal) :
    (⟨4, ![8, 28, 512, 512]⟩ : Shape).Idx → EReal :=
  fun i => meas x φ (i 0) (i 2) (2 * (i 1).val + (i 3).val) * φ (ix2 (i 2) (i 3))

theorem G_apply (x : (⟨4, ![8, 28, 512, 512]⟩ : Shape).Idx → EReal) (φ : (⟨2, ![512, 512]⟩ : Shape).Idx → EReal)
    (b : Fin 8) (l : Fin 28) (R : Fin 512) (n : Fin 512) :
    G x φ (ix4 b l R n) = meas x φ b R (2 * l.val + n.val) * φ (ix2 R n) := rfl

end Cert.Spec

end
-- ==== Proof.KernelValue.lean ====
/-
  From blocks to the array: what the kernel's result array holds after the run.

  The grid has 8 × 4 points; point `(b, mi)` stages rows `[128 mi, 128 mi + 128)` of batch `b` of `x` (all 28 bands)
  and the same rows of `φ`, and writes back the same rows of batch `b` of the result.  The specification's entry at
  `(b, l, R, n)` depends only on row `R` of batch `b` of `x` and row `R` of `φ`, so block `(b, mi)` of the
  specification is the body's function of the two staged blocks; the 32 blocks cover the result array.
-/
import proofs.«107570_j74775380623701_1_alg».proof.Proof.Gen.KernelIdeal.Value
import proofs.«107570_j74775380623701_1_alg».proof.Proof.BodyOutput
import proofs.«107570_j74775380623701_1_alg».proof.Proof.Spec

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Idealize.ShloMosaic.WindowSum

/-- The body's block function at coordinates. -/
theorem blockG_apply (x0 : Vec Ideal S1x28x128x512 .f32) (x1 : Vec Ideal S128x512 .f32) (l : Fin 28) (r : Fin 128) (n : Fin 512) :
    Body.blockG x0 x1 (ix4 0 l r n)
      = Body.acc x0 x1 28 (Nat.le_refl _) r ⟨2 * l.val + n.val, by have := l.isLt; have := n.isLt; omega⟩ * x1 (ix2 r n) := rfl

/-- A block of the specification is the body's function of the two input blocks, at coordinates: `x0` is rows
`[128 Mi, 128 Mi + 128)` of batch `B` of `X`, `x1` the same rows of `Φ`. -/
theorem block_value_ix (X : S8x28x512x512.Idx → EReal) (Φ : S512x512.Idx → EReal)
    (x0 : Vec Ideal S1x28x128x512 .f32) (x1 : Vec Ideal S128x512 .f32) (B : Fin 8) (Mi : ℕ) (hMi : Mi < 4)
    (h0 : ∀ (l : Fin 28) (r : Fin 128) (p : Fin 512), x0 (ix4 0 l r p) = X (ix4 B l ⟨Mi * 128 + r.val, by omega⟩ p))
    (h1 : ∀ (r : Fin 128) (p : Fin 512), x1 (ix2 r p) = Φ (ix2 ⟨Mi * 128 + r.val, by omega⟩ p))
    (l : Fin 28) (r : Fin 128) (n : Fin 512) :
    Body.blockG x0 x1 (ix4 0 l r n) = Cert.Spec.G X Φ (ix4 B l ⟨Mi * 128 + r.val, by omega⟩ n) := by
  rw [blockG_apply, Cert.Spec.G_apply, Body.acc_all, h1]
  unfold Cert.Spec.meas Body.band
  simp only [h0, h1]

/-- The same for a block index `y` and the array index `k` under it, given by their coordinates. -/
theorem block_value (X : S8x28x512x512.Idx → EReal) (Φ : S512x512.Idx → EReal)
    (x0 : Vec Ideal S1x28x128x512 .f32) (x1 : Vec Ideal S128x512 .f32) (B : Fin 8) (Mi : ℕ) (hMi : Mi < 4)
    (h0 : ∀ (l : Fin 28) (r : Fin 128) (p : Fin 512), x0 (ix4 0 l r p) = X (ix4 B l ⟨Mi * 128 + r.val, by omega⟩ p))
    (h1 : ∀ (r : Fin 128) (p : Fin 512), x1 (ix2 r p) = Φ (ix2 ⟨Mi * 128 + r.val, by omega⟩ p))
    (y : S1x28x128x512.Idx) (k : S8x28x512x512.Idx) (hk0 : (k 0).val = B.val) (hk1 : (k 1).val = (y 1).val)
    (hk2 : (k 2).val = Mi * 128 + (y 2).val) (hk3 : (k 3).val = (y 3).val) :
    Body.blockG x0 x1 y = Cert.Spec.G X Φ k := by
  have hy0 : (y 0).val < 1 := (y 0).isLt
  have hy1 : (y 1).val < 28 := (y 1).isLt
  have hy2 : (y 2).val < 128 := (y 2).isLt
  have hy3 : (y 3).val < 512 := (y 3).isLt
  have hy : y = ix4 (0 : Fin 1) (⟨(y 1).val, hy1⟩ : Fin 28) (⟨(y 2).val, hy2⟩ : Fin 128) (⟨(y 3).val, hy3⟩ : Fin 512) :=
    funext fun a => match a with
      | ⟨0, _⟩ => Fin.ext (by show (y 0).val = 0; omega)
      | ⟨1, _⟩ => rfl
      | ⟨2, _⟩ => rfl
      | ⟨3, _⟩ => rfl
  have hk : k = ix4 B (⟨(y 1).val, hy1⟩ : Fin 28) (⟨Mi * 128 + (y 2).val, by omega⟩ : Fin 512) (⟨(y 3).val, hy3⟩ : Fin 512) :=
    funext fun a => match a with
      | ⟨0, _⟩ => Fin.ext hk0
      | ⟨1, _⟩ => Fin.ext hk1
      | ⟨2, _⟩ => Fin.ext hk2
      | ⟨3, _⟩ => Fin.ext hk3
  exact (congrArg (Body.blockG x0 x1) hy).trans
    ((block_value_ix X Φ x0 x1 B Mi hMi h0 h1 ⟨(y 1).val, hy1⟩ ⟨(y 2).val, hy2⟩ ⟨(y 3).val, hy3⟩).trans
      (congrArg (Cert.Spec.G X Φ) hk.symm))

variable (m : (ℓ : Loc nD τ sig) → Buf (Elt Ideal) ℓ) (ρ : Dev nD → PrngReg)

/-- The printed index maps, decided over the 32 grid points: the two input windows move with the output window, and
only the batch and row-tile block indices move. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 2) = win0_2.index t (2 : Fin 4) ∧ win0_1.index t (1 : Fin 2) = 0
    ∧ win0_2.index t (1 : Fin 4) = 0 ∧ win0_2.index t (3 : Fin 4) = 0
    ∧ win0_2.index t (0 : Fin 4) < 8 ∧ win0_2.index t (2 : Fin 4) < 4 :=
  (by decide +kernel : ∀ t : Fin grid0.N, _)

/-- Every (batch, row tile) pair is some point's. -/
theorem idx_onto : ∀ (q0 : Fin 8) (q2 : Fin 4), ∃ t : Fin cfg0.N, win0_2.index t = ![q0.val, 0, q2.val, 0] :=
  (by decide +kernel : ∀ (q0 : Fin 8) (q2 : Fin 4), ∃ t : Fin grid0.N, win0_2.index t = ![q0.val, 0, q2.val, 0])

/-- WHAT POINT `t` WRITES BACK is block `t` of the specification of the argument arrays. -/
theorem flushed_eq (c : Dev nD) (t : Fin cfg0.N) :
    (dats m 0 c).flushed 2 t
      = ((cfg0.win 2).blk t).view.read (Elt Ideal) (Cert.Spec.G (V m c main_arg0) (V m c main_arg1)) := by
  rw [flushed2_A, Body.out_eq]
  obtain ⟨e0, e1, e2, e3, e4, e5, e6, e7, e8, e9⟩ := idx_facts t
  funext j
  show Body.blockG (iblk m c 0 t) (iblk m c 1 t) j
    = Cert.Spec.G (V m c main_arg0) (V m c main_arg1) (((cfg0.win 2).blk t).view.emb j)
  have hj0 : (j 0).val < 1 := (j 0).isLt
  refine block_value (V m c main_arg0) (V m c main_arg1) (iblk m c 0 t) (iblk m c 1 t) ⟨win0_2.index t (0 : Fin 4), e8⟩
    (win0_2.index t (2 : Fin 4)) e9 (fun l r p => ?_) (fun r p => ?_) j _ ?_ ?_ ?_ ?_
  · show V m c main_arg0 (((cfg0.win 0).blk t).view.emb (ix4 0 l r p)) = V m c main_arg0 _
    refine congrArg (V m c main_arg0) (funext fun a => Fin.ext ?_)
    match a with
    | ⟨0, _⟩ => show win0_0.index t (0 : Fin 4) * 1 + 1 * 0 = win0_2.index t (0 : Fin 4); omega
    | ⟨1, _⟩ => show win0_0.index t (1 : Fin 4) * 28 + 1 * l.val = l.val; omega
    | ⟨2, _⟩ => show win0_0.index t (2 : Fin 4) * 128 + 1 * r.val = win0_2.index t (2 : Fin 4) * 128 + r.val; omega
    | ⟨3, _⟩ => show win0_0.index t (3 : Fin 4) * 512 + 1 * p.val = p.val; omega
  · show V m c main_arg1 (((cfg0.win 1).blk t).view.emb (ix2 r p)) = V m c main_arg1 _
    refine congrArg (V m c main_arg1) (funext fun a => Fin.ext ?_)
    match a with
    | ⟨0, _⟩ => show win0_1.index t (0 : Fin 2) * 128 + 1 * r.val = win0_2.index t (2 : Fin 4) * 128 + r.val; omega
    | ⟨1, _⟩ => show win0_1.index t (1 : Fin 2) * 512 + 1 * p.val = p.val; omega
  · show win0_2.index t (0 : Fin 4) * 1 + 1 * (j 0).val = win0_2.index t (0 : Fin 4); omega
  · show win0_2.index t (1 : Fin 4) * 28 + 1 * (j 1).val = (j 1).val; omega
  · show win0_2.index t (2 : Fin 4) * 128 + 1 * (j 2).val = win0_2.index t (2 : Fin 4) * 128 + (j 2).val; omega
  · show win0_2.index t (3 : Fin 4) * 512 + 1 * (j 3).val = (j 3).val; omega

/-- An index of the array is in point `t`'s block iff each coordinate is in the block's range on its axis. -/
theorem mem_blk (t : Fin cfg0.N) (i : S8x28x512x512.Idx) :
    i ∈ ((cfg0.win 2).blk t).view.set ↔ ∀ a : Fin 4, win0_2.index t a * S1x28x128x512.size a ≤ (i a).val
      ∧ (i a).val < win0_2.index t a * S1x28x128x512.size a + S1x28x128x512.size a := by
  show i ∈ ((View.whole main_v0).slice (win0_2.rect t)).set ↔ _
  rw [View.set_slice_whole, Rect.mem_set_unit]
  exact Iff.rfl

/-- The 32 blocks cover the result array: index `(b, l, R, n)` is in the block of batch `b`, row tile `R / 128`. -/
theorem cover (i : S8x28x512x512.Idx) :
    ∃ t : Fin cfg0.N, (cfg0.win 2).flush t = true ∧ i ∈ ((cfg0.win 2).blk t).view.set := by
  have hi0 : (i 0).val < 8 := (i 0).isLt
  have hi1 : (i 1).val < 28 := (i 1).isLt
  have hi2 : (i 2).val < 512 := (i 2).isLt
  have hi3 : (i 3).val < 512 := (i 3).isLt
  obtain ⟨t, ht⟩ := idx_onto ⟨(i 0).val, hi0⟩ ⟨(i 2).val / 128, by omega⟩
  have q0 : win0_2.index t (0 : Fin 4) = (i 0).val := congrFun ht 0
  have q1 : win0_2.index t (1 : Fin 4) = 0 := congrFun ht 1
  have q2 : win0_2.index t (2 : Fin 4) = (i 2).val / 128 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 28 ≤ (i 1).val ∧ (i 1).val < win0_2.index t (1 : Fin 4) * 28 + 28; omega
  | ⟨2, _⟩ => show win0_2.index t (2 : Fin 4) * 128 ≤ (i 2).val ∧ (i 2).val < win0_2.index t (2 : Fin 4) * 128 + 128; omega
  | ⟨3, _⟩ => show win0_2.index t (3 : Fin 4) * 512 ≤ (i 3).val ∧ (i 3).val < win0_2.index t (3 : Fin 4) * 512 + 512; omega

/-- THE RESULT ARRAY after the run: the specification of the argument arrays. -/
theorem final (c : Dev nD) :
    (dats m 0 c).arrAt 2 cfg0.N
      = Cert.Spec.G (m ((c : Thread nD τ).loc main_arg0)) (m ((c : Thread nD τ).loc main_arg1)) :=
  (dats m 0 c).arrAt_eq_of_cover 2 (Cert.Spec.G (V m c main_arg0) (V m c main_arg1)) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefIndices.lean ====
/-
  The reference's two index arrays, as numbers.

  The scatter's index array is `2l + p` at position `512 l + p` of a flat array of 28 × 512 words, the gather's is
  `2l + j` at `(l, j)`; each passes through the `x[idx]` normalisation "add the extent where negative", which does
  nothing to a non-negative word.  All the words are below 566, far from the 32-bit sign bit, so the word
  arithmetic is the arithmetic of the naturals.
-/
import proofs.«107570_j74775380623701_1_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-! ## Small 32-bit words -/

/-- A word below the sign bit reads, signed, as the natural it was made from. -/
theorem toInt_small (n : ℕ) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- `2 · a + b` on words is the word of `2 a + b`. -/
theorem word_affine (a b : ℕ) (h : 2 * a + b < 2 ^ 31) :
    IntOp.addi (IntOp.muli 2#32 (BitVec.ofNat 32 a)) (BitVec.ofNat 32 b) = BitVec.ofNat 32 (2 * a + b) := by
  unfold IntOp.addi IntOp.muli
  apply BitVec.eq_of_toNat_eq
  simp only [BitVec.toNat_add, BitVec.toNat_mul, BitVec.toNat_ofNat]
  omega

/-- "Where negative, something else" keeps a non-negative word. -/
theorem select_nonneg (n : ℕ) (h : n < 2 ^ 31) (A : BitVec 32) :
    Scalar.select (IntOp.cmpi .slt (BitVec.ofNat 32 n) 0#32) A (BitVec.ofNat 32 n) = BitVec.ofNat 32 n := by
  have hs : (BitVec.ofNat 32 n).slt 0#32 = false := by
    rw [BitVec.slt, toInt_small n h]
    simp
  unfold Scalar.select IntOp.cmpi
  simp only [hs]
  rfl

variable {F : FTy → Type} [FloatOps F]

/-! ## The scatter's indices -/

/-- Before flattening: `2l + p` at `(l, p)`. -/
theorem pos11 (l : Fin 28) (p : Fin 512) :
    val_main_v11 (F := F) (ix2 l p) = BitVec.ofNat 32 (2 * l.val + p.val) := by
  rw [val_main_v11_apply, val_main_v9_apply, val_main_v6_apply, val_main_v5_apply, val_main_c_apply,
    val_main_v4_apply, val_main_v3_apply, val_main_v10_apply, val_main_v8_apply, val_main_v7_apply]
  exact word_affine l.val p.val (by have := l.isLt; have := p.isLt; omega)

/-- The scatter's index at flat position `e`: `2 (e / 512) + e % 512`. -/
theorem scat_idx (e : Fin 14336) :
    val_main_v21 (F := F) (ix2 e 0) = BitVec.ofNat 32 (2 * (e.val / 512) + e.val % 512) := by
  have he : e.val < 14336 := e.isLt
  have h12 : val_main_v12 (F := F) (idx_main_v21 (ix2 e 0)) = BitVec.ofNat 32 (2 * (e.val / 512) + e.val % 512) := by
    rw [val_main_v12_apply]
    exact pos11 ⟨e.val / 512, by omega⟩ ⟨e.val % 512, by omega⟩
  rw [val_main_v21_apply, val_main_v20_apply, val_main_v17_apply, val_main_v19_apply, val_main_v16_apply,
    val_main_c_0_apply, h12]
  exact select_nonneg _ (by omega) _

/-! ## The gather's indices -/

/-- `2l + j` at `(l, j)`. -/
theorem pos31 (l : Fin 28) (p : Fin 512) :
    val_main_v31 (F := F) (ix2 l p) = BitVec.ofNat 32 (2 * l.val + p.val) := by
  rw [val_main_v31_apply, val_main_v29_apply, val_main_v26_apply, val_main_v25_apply, val_main_c_2_apply,
    val_main_v24_apply, val_main_v23_apply, val_main_v30_apply, val_main_v28_apply, val_main_v27_apply]
  exact word_affine l.val p.val (by have := l.isLt; have := p.isLt; omega)

/-- The gather's start index at `(l, j, 0)`: `2l + j`. -/
theorem gat_idx (l : Fin 28) (p : Fin 512) :
    val_main_v37 (F := F) (ix3 l p 0) = BitVec.ofNat 32 (2 * l.val + p.val) := by
  have h31 : val_main_v31 (F := F) (idx_main_v37 (ix3 l p 0)) = BitVec.ofNat 32 (2 * l.val + p.val) := pos31 l p
  rw [val_main_v37_apply, val_main_v36_apply, val_main_v33_apply, val_main_v35_apply, val_main_v32_apply,
    val_main_c_3_apply, h31]
  exact select_nonneg _ (by have := l.isLt; have := p.isLt; omega) _

end Cert.ReferenceIdeal.RefValue

end
-- ==== Proof.LibIdx3.lean ====
/-
  Sums over the indices of a rank-3 array, by coordinates: the rank-3 companions of the library's `idxEquiv2`
  and `sum_idx2`. A rank-3 index set is the product of its three coordinate ranges, so a sum over it, in any
  commutative monoid, is the triple sum over the coordinates, the index built by `ix3`. Stated for any extents.
-/
import Idealize.ShloMosaic.Lib.ValueIdx

noncomputable section

open scoped BigOperators

namespace Cert.Guided

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Guided

end
-- ==== Proof.RefScatter.lean ====
/-
  The reference's scatter-add, read at an entry.

  The updates are the masked cube with the band and column axes flattened: update `(b, R, 512 l + p)` is
  `x[b, l, R, p] · φ[R, p]` and lands in the measurement at `(b, R, 2l + p)`.  The ideal scatter-add is the operand
  (zero) plus the sum of the updates landing at the entry, so the measurement at `(b, R, C)` is the sum over `(l, p)`
  with `2l + p = C` — per band at most one `p`, namely `C − 2l` when that is a column of the band: the window sum.
-/
import proofs.«107570_j74775380623701_1_alg».proof.Proof.RefIndices
import proofs.«107570_j74775380623701_1_alg».proof.Proof.LibIdx3
import proofs.«107570_j74775380623701_1_alg».proof.Proof.Spec
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.ShloMosaic.WindowSum

/-! ## Sums -/

/-- One window's term of a window sum, as the sum over the window's columns of the one that lands at `C`. -/
theorem window_term {M : Type*} [AddCommMonoid M] {W : ℕ} (o C : ℕ) (X : Fin W → M) :
    (if h : o ≤ C ∧ C < o + W then X ⟨C - o, by omega⟩ else 0) = ∑ p : Fin W, if o + p.val = C then X p else 0 := by
  by_cases h : o ≤ C ∧ C < o + W
  · rw [dif_pos h, Finset.sum_eq_single (⟨C - o, by omega⟩ : Fin W)]
    · rw [if_pos (by show o + (C - o) = C; omega)]
    · intro p _ hp
      exact if_neg fun e => hp (Fin.ext (by show p.val = C - o; omega))
    · intro hn; exact absurd (Finset.mem_univ _) hn
  · rw [dif_neg h]
    exact (Finset.sum_eq_zero fun p _ => if_neg fun e => h (by have := p.isLt; omega)).symm

/-- A triple sum whose terms vanish off one value of each of the first two indices. -/
theorem sum3_collapse {M : Type*} [AddCommMonoid M] {n0 n1 n2 : ℕ} (b : Fin n0) (R : Fin n1) (Q : Fin n2 → Prop)
    [DecidablePred Q] (f : Fin n0 → Fin n1 → Fin n2 → M) :
    (∑ b' : Fin n0, ∑ R' : Fin n1, ∑ e : Fin n2, if b' = b ∧ R' = R ∧ Q e then f b' R' e else 0)
      = ∑ e : Fin n2, if Q e then f b R e else 0 := by
  rw [Finset.sum_eq_single b (fun b' _ hb => ?_) (fun h => absurd (Finset.mem_univ _) h)]
  · rw [Finset.sum_eq_single R (fun R' _ hR => ?_) (fun h => absurd (Finset.mem_univ _) h)]
    · exact Finset.sum_congr rfl fun e _ => by simp
    · exact Finset.sum_eq_zero fun e _ => if_neg fun h => hR h.2.1
  · exact Finset.sum_eq_zero fun R' _ => Finset.sum_eq_zero fun e _ => if_neg fun h => hb h.1

/-- A sum over the 28 · 512 flat positions is the double sum over band and column, position `512 l + p`. -/
theorem sum_flat {M : Type*} [AddCommMonoid M] (g : Fin 14336 → M) :
    ∑ e, g e = ∑ l : Fin 28, ∑ p : Fin 512, g ⟨p.val + 512 * l.val, by have := l.isLt; have := p.isLt; omega⟩ := by
  rw [← Equiv.sum_comp (finProdFinEquiv (m := 28) (n := 512)) g, Fintype.sum_prod_type]
  rfl

/-! ## The scatter's geometry -/

local notation "dS" => scatter_S8x512x566_S14336x1_S8x512x14336_01_2_2_1

/-- The start of an update's window on the scattered axis: the index array at the update's flat position. -/
theorem scatter_start2 (b' : Fin 8) (R' : Fin 512) (e : Fin 14336) (idx : IVec S14336x1 32) :
    (dS).start (ix3 b' R' e) idx 2 = (idx (ix2 e 0)).toInt := by
  unfold ScatterDims.start
  rw [dif_pos (show (2 : Fin 3) ∈ (dS).scatterDimsToOperandDims from List.mem_singleton.mpr rfl)]
  have hsi : (dS).siIdx (ix3 b' R' e) ⟨List.idxOf (2 : Fin 3) (dS).scatterDimsToOperandDims,
      List.idxOf_lt_length_iff.2 (List.mem_singleton.mpr rfl)⟩ = ix2 e 0 := by
    funext a; refine Fin.ext ?_
    match a with
    | ⟨0, _⟩ => rfl
    | ⟨1, _⟩ => rfl
  rw [hsi]

variable {F : FTy → Type} [FloatOps F]

/-- Where update `(b', R', e)` lands: entry `(b', R', 2 (e / 512) + e % 512)` of the measurement. -/
theorem scatter_lands (b' : Fin 8) (R' : Fin 512) (e : Fin 14336) (b : Fin 8) (R : Fin 512) (C : Fin 566) :
    (dS).resultIdx? (ix3 b' R' e) (val_main_v21 (F := F)) = some (ix3 b R C)
      ↔ b' = b ∧ R' = R ∧ 2 * (e.val / 512) + e.val % 512 = C.val := by
  have he : e.val < 14336 := e.isLt
  have hb' : b'.val < 8 := b'.isLt
  have hR' : R'.val < 512 := R'.isLt
  have hs0 : (dS).start (ix3 b' R' e) (val_main_v21 (F := F)) 0 + (((dS).window (ix3 b' R' e) 0 : ℕ) : ℤ) = (b'.val : ℤ) := by
    show (0 : ℤ) + ((b'.val : ℕ) : ℤ) = _; omega
  have hs1 : (dS).start (ix3 b' R' e) (val_main_v21 (F := F)) 1 + (((dS).window (ix3 b' R' e) 1 : ℕ) : ℤ) = (R'.val : ℤ) := by
    show (0 : ℤ) + ((R'.val : ℕ) : ℤ) = _; omega
  have hs2 : (dS).start (ix3 b' R' e) (val_main_v21 (F := F)) 2 + (((dS).window (ix3 b' R' e) 2 : ℕ) : ℤ)
      = ((2 * (e.val / 512) + e.val % 512 : ℕ) : ℤ) := by
    rw [scatter_start2, scat_idx, toInt_small _ (by omega)]
    show _ + ((0 : ℕ) : ℤ) = _; omega
  have hin : ∀ a, 0 ≤ (dS).start (ix3 b' R' e) (val_main_v21 (F := F)) a + (((dS).window (ix3 b' R' e) a : ℕ) : ℤ)
      ∧ (dS).start (ix3 b' R' e) (val_main_v21 (F := F)) a + (((dS).window (ix3 b' R' e) a : ℕ) : ℤ) < ((S8x512x566.size a : ℕ) : ℤ) := fun a =>
    match a with
    | ⟨0, _⟩ => by rw [show (⟨0, _⟩ : Fin 3) = 0 from rfl, hs0]; show _ ∧ _ < ((8 : ℕ) : ℤ); omega
    | ⟨1, _⟩ => by rw [show (⟨1, _⟩ : Fin 3) = 1 from rfl, hs1]; show _ ∧ _ < ((512 : ℕ) : ℤ); omega
    | ⟨2, _⟩ => by rw [show (⟨2, _⟩ : Fin 3) = 2 from rfl, hs2]; show _ ∧ _ < ((566 : ℕ) : ℤ); omega
  unfold ScatterDims.resultIdx?
  rw [dif_pos hin, Option.some.injEq]
  constructor
  · intro h
    have e0 := congrArg (fun i : S8x512x566.Idx => (i 0).val) h
    have e1 := congrArg (fun i : S8x512x566.Idx => (i 1).val) h
    have e2 := congrArg (fun i : S8x512x566.Idx => (i 2).val) h
    simp only [hs0, hs1, hs2, Int.toNat_natCast] at e0 e1 e2
    exact ⟨Fin.ext e0, Fin.ext e1, e2⟩
  · rintro ⟨h0, h1, h2⟩
    funext a
    refine Fin.ext ?_
    match a with
    | ⟨0, _⟩ =>
      show ((dS).start (ix3 b' R' e) (val_main_v21 (F := F)) 0 + (((dS).window (ix3 b' R' e) 0 : ℕ) : ℤ)).toNat = b.val
      rw [hs0, Int.toNat_natCast, h0]
    | ⟨1, _⟩ =>
      show ((dS).start (ix3 b' R' e) (val_main_v21 (F := F)) 1 + (((dS).window (ix3 b' R' e) 1 : ℕ) : ℤ)).toNat = R.val
      rw [hs1, Int.toNat_natCast, h1]
    | ⟨2, _⟩ =>
      show ((dS).start (ix3 b' R' e) (val_main_v21 (F := F)) 2 + (((dS).window (ix3 b' R' e) 2 : ℕ) : ℤ)).toNat = C.val
      rw [hs2, Int.toNat_natCast, h2]

/-! ## The updates and the measurement -/

/-- Update `(b, R, 512 l + p)` is the masked entry `x[b, l, R, p] · φ[R, p]`. -/
theorem update_apply (x0 : S8x28x512x512.Idx → EReal) (x1 : S512x512.Idx → EReal) (b : Fin 8) (R : Fin 512)
    (l : Fin 28) (p : Fin 512) :
    val_main_v14 (F := Ideal) x0 x1 (ix3 b R ⟨p.val + 512 * l.val, by have := l.isLt; have := p.isLt; omega⟩)
      = x0 (ix4 b l R p) * x1 (ix2 R p) := by
  have hl := l.isLt
  have hp := p.isLt
  have hb := b.isLt
  have hR := R.isLt
  have e14 : idx_main_v14 (ix3 b R (⟨p.val + 512 * l.val, by omega⟩ : Fin 14336)) = ix4 b R l p :=
    funext fun a => Fin.ext (match a with
      | ⟨0, _⟩ => by show ((b.val * 512 + R.val) * 14336 + (p.val + 512 * l.val)) / 7340032 = b.val; omega
      | ⟨1, _⟩ => by show ((b.val * 512 + R.val) * 14336 + (p.val + 512 * l.val)) / 14336 % 512 = R.val; omega
      | ⟨2, _⟩ => by show ((b.val * 512 + R.val) * 14336 + (p.val + 512 * l.val)) / 512 % 28 = l.val; omega
      | ⟨3, _⟩ => by show ((b.val * 512 + R.val) * 14336 + (p.val + 512 * l.val)) % 512 = p.val; omega)
  have e13 : idx_main_v13 (ix4 b R l p) = ix4 b l R p :=
    funext fun a => match a with
      | ⟨0, _⟩ => rfl
      | ⟨1, _⟩ => rfl
      | ⟨2, _⟩ => rfl
      | ⟨3, _⟩ => rfl
  have e01 : idx_main_v0 (idx_main_v1 (ix4 b l R p)) = ix2 R p :=
    funext fun a => match a with
      | ⟨0, _⟩ => rfl
      | ⟨1, _⟩ => rfl
  rw [val_main_v14_apply, e14, val_main_v13_apply, e13, val_main_v2_apply, val_main_v1_apply, val_main_v0_apply, e01]
  rfl

/-- THE MEASUREMENT: the scatter-add at `(b, R, C)` is the specification's window sum. -/
theorem scatter_apply (x0 : S8x28x512x512.Idx → EReal) (x1 : S512x512.Idx → EReal) (b : Fin 8) (R : Fin 512)
    (C : Fin 566) :
    val_main_v22 (F := Ideal) x0 x1 (ix3 b R C) = Cert.Spec.meas x0 x1 b R C.val := by
  unfold val_main_v22 Host.scatterAdd
  show val_main_v15 (F := Ideal) (ix3 b R C)
      + ∑ j ∈ Finset.univ.filter (fun j => (dS).resultIdx? j (val_main_v21 (F := Ideal)) = some (ix3 b R C)),
          val_main_v14 (F := Ideal) x0 x1 j = _
  have h15 : val_main_v15 (F := Ideal) (ix3 b R C) = 0 := by
    rw [val_main_v15_apply, val_main_cst_apply]
    exact Ideal.ofBits_zero_f32
  rw [h15, zero_add, Finset.sum_filter, Cert.Guided.sum_idx3]
  refine (Finset.sum_congr rfl fun b' _ => Finset.sum_congr rfl fun R' _ => Finset.sum_congr rfl fun e _ =>
    if_congr (scatter_lands (F := Ideal) b' R' e b R C) rfl rfl).trans ?_
  rw [sum3_collapse b R (fun e : Fin 14336 => 2 * (e.val / 512) + e.val % 512 = C.val)
    (fun b' R' e => val_main_v14 (F := Ideal) x0 x1 (ix3 b' R' e))]
  rw [sum_flat]
  unfold Cert.Spec.meas windowSum
  refine Finset.sum_congr rfl fun l _ => ?_
  refine Eq.trans ?_ (window_term (W := 512) (2 * l.val) C.val (fun p : Fin 512 => x0 (ix4 b l R p) * x1 (ix2 R p))).symm
  refine Finset.sum_congr rfl fun p _ => ?_
  have hl := l.isLt
  have hp := p.isLt
  rw [update_apply]
  exact if_congr (by show 2 * ((p.val + 512 * l.val) / 512) + (p.val + 512 * l.val) % 512 = C.val ↔ 2 * l.val + p.val = C.val; omega) rfl rfl

end Cert.ReferenceIdeal.RefValue

end
-- ==== Proof.RefValue.lean ====
/-
  The reference's result as the specification.

  The gather reads the measurement at `(b, R, 2l + j)` for result entry `(b, R, l, j)` (the start index `2l + j`
  is at most 565, so the clamp into `[0, 565]` does nothing); the transpose swaps the band and row axes back; the
  last product masks with `φ[R, j]`.  With the scatter-add read as the measurement, that is the specification.
-/
import proofs.«107570_j74775380623701_1_alg».proof.Proof.RefScatter

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.ShloMosaic.WindowSum

local notation "dG" => gather_S8x512x566_S28x512x1_S8x512x28x512_01_2_n_n_2_2_85121

/-- The gathered axis' start for result index `j`: the start-index array at `(j 2, j 3, 0)`, read signed and clamped. -/
theorem gather_start2 (j : S8x512x28x512.Idx) (idx : IVec S28x512x1 32) :
    (dG).start j idx 2 = min (idx (ix3 (j 2) (j 3) 0)).toInt.toNat (566 - 1) := by
  unfold GatherDims.start
  rw [dif_pos (show (2 : Fin 3) ∈ (dG).startIndexMap from List.mem_singleton.mpr rfl)]
  have hsi : (dG).siIdx j ⟨List.idxOf (2 : Fin 3) (dG).startIndexMap,
      List.idxOf_lt_length_iff.2 (List.mem_singleton.mpr rfl)⟩ = ix3 (j 2) (j 3) 0 := by
    funext a; refine Fin.ext ?_
    match a with
    | ⟨0, _⟩ => rfl
    | ⟨1, _⟩ => rfl
    | ⟨2, _⟩ => rfl
  rw [hsi]
  rfl

/-- The gather at `(b, R, l, j)` reads its operand at `(b, R, 2l + j)`. -/
theorem gather_apply {α : Type} (y : S8x512x566.Idx → α) (b : Fin 8) (R : Fin 512) (l : Fin 28) (j : Fin 512) :
    Host.gather (dG) y (val_main_v37 (F := Ideal)) (ix4 b R l j)
      = y (ix3 b R ⟨2 * l.val + j.val, by have := l.isLt; have := j.isLt; omega⟩) := by
  have hl := l.isLt
  have hj := j.isLt
  unfold Host.gather
  refine congrArg y (funext fun a => Fin.ext ?_)
  match a with
  | ⟨0, _⟩ =>
    show (dG).start (ix4 b R l j) (val_main_v37 (F := Ideal)) 0 + (dG).batchCoord (ix4 b R l j) 0
      + (dG).offCoord (ix4 b R l j) 0 = b.val
    show 0 + 0 + b.val = b.val
    omega
  | ⟨1, _⟩ =>
    show (dG).start (ix4 b R l j) (val_main_v37 (F := Ideal)) 1 + (dG).batchCoord (ix4 b R l j) 1
      + (dG).offCoord (ix4 b R l j) 1 = R.val
    show 0 + 0 + R.val = R.val
    omega
  | ⟨2, _⟩ =>
    show (dG).start (ix4 b R l j) (val_main_v37 (F := Ideal)) 2 + (dG).batchCoord (ix4 b R l j) 2
      + (dG).offCoord (ix4 b R l j) 2 = 2 * l.val + j.val
    rw [gather_start2]
    show min (val_main_v37 (F := Ideal) (ix3 l j 0)).toInt.toNat (566 - 1) + 0 + 0 = 2 * l.val + j.val
    rw [gat_idx, toInt_small _ (by omega), Int.toNat_natCast]
    omega

/-- THE REFERENCE'S RESULT is the specification of its two arguments. -/
theorem result_eq (x0 : S8x28x512x512.Idx → EReal) (x1 : S512x512.Idx → EReal) :
    val_main_v42 (F := Ideal) x0 x1 = Cert.Spec.G x0 x1 := by
  funext i
  obtain ⟨b, l, R, n, rfl⟩ : ∃ (b : Fin 8) (l : Fin 28) (R : Fin 512) (n : Fin 512), i = ix4 b l R n :=
    ⟨i 0, i 1, i 2, i 3, eq_ix4 i⟩
  rw [Cert.Spec.G_apply, val_main_v42_apply, val_main_v39_apply, val_main_v41_apply, val_main_v40_apply]
  have e39 : idx_main_v39 (ix4 b l R n) = ix4 b R l n :=
    funext fun a => match a with
      | ⟨0, _⟩ => rfl
      | ⟨1, _⟩ => rfl
      | ⟨2, _⟩ => rfl
      | ⟨3, _⟩ => rfl
  have e40 : idx_main_v40 (idx_main_v41 (ix4 b l R n)) = ix2 R n :=
    funext fun a => match a with
      | ⟨0, _⟩ => rfl
      | ⟨1, _⟩ => rfl
  rw [e39, e40]
  unfold val_main_v38
  rw [gather_apply, scatter_apply]
  rfl

end Cert.ReferenceIdeal.RefValue

end
-- ==== Proof.lean ====
/-
  The proof of `Cert.Claim`: the coded-aperture kernel against its jnp reference, over the extended reals.

  Both programs compute, for a batch of cubes `x : [8, 28, 512, 512]` and a mask `φ : [512, 512]`,

      G x φ [b, l, R, n] = (∑ over the bands l' with 2l' ≤ 2l + n < 2l' + 512 of x[b, l', R, 2l + n − 2l'] · φ[R, 2l + n − 2l']) · φ[R, n]

  (Proof/Spec.lean).  The kernel does it row tile by row tile with an overlap-add accumulator in a scratch buffer
  (Proof/Accumulator.lean: the scratch after each read-modify-write; Proof/BodyOutput.lean: the output block;
  Proof/KernelValue.lean: the blocks cover the result array); the reference with a scatter-add into a measurement
  array and a gather back out of it (Proof/RefIndices.lean: the two index arrays; Proof/RefScatter.lean: the
  scatter-add is the window sum; Proof/RefValue.lean: the gather, the transpose and the mask).  The two orders of
  summation agree because addition of extended reals is commutative and associative; no finiteness is used.
  The frames are the generated ones; the ideal pass rewrote nothing, so `preserves` is trivial.
-/
import proofs.«107570_j74775380623701_1_alg».proof.Defs
import proofs.«107570_j74775380623701_1_alg».proof.Proof.Gen.Kernel
import proofs.«107570_j74775380623701_1_alg».proof.Proof.Gen.Kernel.Frame
import proofs.«107570_j74775380623701_1_alg».proof.Proof.Gen.KernelIdeal
import proofs.«107570_j74775380623701_1_alg».proof.Proof.Gen.KernelIdeal.Frame
import proofs.«107570_j74775380623701_1_alg».proof.Proof.Gen.KernelIdeal.Value
import proofs.«107570_j74775380623701_1_alg».proof.Proof.Gen.ReferenceIdeal
import proofs.«107570_j74775380623701_1_alg».proof.Proof.Gen.ReferenceIdeal.Run
import proofs.«107570_j74775380623701_1_alg».proof.Proof.Gen.ReferenceIdeal.Read
import proofs.«107570_j74775380623701_1_alg».proof.Proof.Gen.Pre_finite_inputs
import proofs.«107570_j74775380623701_1_alg».proof.Proof.KernelValue
import proofs.«107570_j74775380623701_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the specification of the (agreeing) arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
